-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128x128 .f32) (main_arg14 : FVec F S128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128x128 .f32) (main_arg14 : FVec F S128x128 .f32) (main_arg15 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : FVec F S128x128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : FVec F S128x128 .f32) (main_arg14 : FVec F S128x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S5000x128 : Shape := ⟨2, ![5000, 128]⟩
abbrev S1x128 : Shape := ⟨2, ![1, 128]⟩

abbrev nBuf : Space → Nat
  | .hbm => 123
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S50000x128, .f32⟩
  | .hbm, ⟨106, _⟩ => ⟨S_, .i32⟩
  | .hbm, ⟨107, _⟩ => ⟨S800000, .i32⟩
  | .hbm, ⟨108, _⟩ => ⟨S800000, .i1⟩
  | .hbm, ⟨109, _⟩ => ⟨S_, .i32⟩
  | .hbm, ⟨110, _⟩ => ⟨S800000, .i32⟩
  | .hbm, ⟨111, _⟩ => ⟨S800000, .i32⟩
  | .hbm, ⟨112, _⟩ => ⟨S800000, .i32⟩
  | .hbm, ⟨113, _⟩ => ⟨S800000x1, .i32⟩
  | .hbm, ⟨114, _⟩ => ⟨S800000x128, .f32⟩
  | .hbm, ⟨115, _⟩ => ⟨S_, .f32⟩
  | .hbm, ⟨116, _⟩ => ⟨S50000x128, .f32⟩
  | .hbm, ⟨117, _⟩ => ⟨S800000x1, .i32⟩
  | .hbm, ⟨118, _⟩ => ⟨S50000x128, .f32⟩
  | .hbm, ⟨119, _⟩ => ⟨S50000x1, .f32⟩
  | .hbm, ⟨120, _⟩ => ⟨S50000x128, .f32⟩
  | .hbm, ⟨121, _⟩ => ⟨S50000x128, .f32⟩
  | .hbm, ⟨122, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S128x128, .f32⟩
  | .local _ .vmem, ⟨36, _⟩ => ⟨S128, .f32⟩
  | .local _ .vmem, ⟨37, _⟩ => ⟨S5000x128, .f32⟩
  | .local _ .vmem, ⟨38, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_cst_9 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_10 : Ref sig .tc := ⟨.hbm, 67, rfl⟩
abbrev main_v39 : Ref sig .tc := ⟨.hbm, 68, rfl⟩
abbrev main_v40 : Ref sig .tc := ⟨.hbm, 69, rfl⟩
abbrev main_c_11 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_12 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_cst_14 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_15 : Ref sig .tc := ⟨.hbm, 93, rfl⟩
abbrev main_v60 : Ref sig .tc := ⟨.hbm, 94, rfl⟩
abbrev main_cst_16 : Ref sig .tc := ⟨.hbm, 95, rfl⟩
abbrev main_v61 : Ref sig .tc := ⟨.hbm, 96, rfl⟩
abbrev main_v62 : Ref sig .tc := ⟨.hbm, 97, rfl⟩
abbrev main_cst_17 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_18 : Ref sig .tc := ⟨.hbm, 106, rfl⟩
abbrev main_v70 : Ref sig .tc := ⟨.hbm, 107, rfl⟩
abbrev main_v71 : Ref sig .tc := ⟨.hbm, 108, rfl⟩
abbrev main_c_19 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_20 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S128_S128 : S128.ShapeCasts S128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v83) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 175
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128x128, .f32⟩
  | 15 => ⟨S128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S128, .f32⟩
  | 49 => ⟨S_, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S50000x128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S_, .f32⟩
  | 94 => ⟨S800000, .f32⟩
  | 95 => ⟨S_, .f32⟩
  | 96 => ⟨S50000, .f32⟩
  | 97 => ⟨S800000x1, .i32⟩
  | 98 => ⟨S50000, .f32⟩
  | 99 => ⟨S_, .f32⟩
  | 100 => ⟨S50000, .f32⟩
  | 101 => ⟨S50000, .f32⟩
  | 102 => ⟨S50000x1, .f32⟩
  | 103 => ⟨S50000x128, .f32⟩
  | 104 => ⟨S50000x128, .f32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S128, .f32⟩
  | 113 => ⟨S_, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S50000x128, .f32⟩
  | 120 => ⟨S_, .f32⟩
  | 121 => ⟨S128, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call0_cst : Ref sig .tc := ⟨.hbm, 77, rfl⟩
abbrev main_call0_v0 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_17 : Ref sig .tc := ⟨.hbm, 120, rfl⟩
abbrev main_v83 : Ref sig .tc := ⟨.hbm, 121, rfl⟩
abbrev main_cst_18 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call1_cst : Ref sig .tc := ⟨.hbm, 141, rfl⟩
abbrev main_call1_v0 : Ref sig .tc := ⟨.hbm, 142, rfl⟩
abbrev main_v101 : Ref sig .tc := ⟨.hbm, 143, rfl⟩
abbrev main_c_20 : Ref sig .tc := ⟨.hbm, 144, rfl⟩
abbrev main_v102 : Ref sig .tc := ⟨.hbm, 145, rfl⟩
abbrev main_v103 : Ref sig .tc := ⟨.hbm, 146, rfl⟩
abbrev main_c_21 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_22 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_23 : Ref sig .tc := ⟨.hbm, 157, rfl⟩
abbrev main_v112 : Ref sig .tc := ⟨.hbm, 158, rfl⟩
abbrev main_cst_24 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_25 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its result named.

  The program is five Pallas regions among stretches of host operations. Its generated frame runs the ten
  segments one after another and ends with every unscoped buffer at the contents of the last boundary,
  the fold `W10` of the segments over the launch memory. The frame keeps of that only "the arguments are
  unchanged"; here the same run is stated with one more fact read off the same final state: the result
  buffer holds `W10` at the result's reference. Everything that follows opens that fold, one segment at a
  time, to say which function of the arguments it is.
-/
import proofs.«161787_j75977971466899_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this statement, which takes
-- unfolding plain definitions in a metavariable's type
set_option backward.isDefEq.respectTransparency.types false in
/-- Every weakly fair execution of the program terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v83) = W10 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v83 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.RunValue

end
-- ==== Proof.NetDefs.lean ====
/-
  The host-side functions of the graph network, named.

  The graph has 800000 edges (src, dst) over 50000 nodes. Around its dense stages the network computes:

  * `degMax dst`: per node, max(number of edges arriving at the node, 1) — a scatter-add of ones at the
    destinations into zeros, then the maximum with 1; and `invDeg dst = 1 / degMax dst`.
  * `scat h src dst`: per node, the sum of the feature rows h[src e] over the edges e arriving at it — a
    gather of rows (negative indices wrapped by +50000 first) followed by a row scatter-add into zeros.
  * `aggK h src dst inv`: that sum times the per-node factor `inv`, broadcast along the features: the mean
    aggregation, written with the reciprocal.
  * the batch statistics of an array a, per feature column: `mean a` = (Σ_rows a)/50000,
    `var a` = (Σ_rows (a − mean)²)/50000, `rstd a` = rsqrt(var a + ε), and the folded affine map
    `scaleOf a γ` = γ·rstd a, `shiftOf a γ β` = β − mean a · scaleOf a γ.
-/
import proofs.«161787_j75977971466899_1_alg».proof.KernelIdeal
import proofs.«161787_j75977971466899_1_alg».proof.Proof.Gen.KernelIdeal
import Idealize.ShloMosaic.PureOps.Ideal

noncomputable section

namespace Cert.KernelIdeal.NetK

open Cert.KernelIdeal Cert.KernelIdeal.Gen Idealize.ShloMosaic

/-- Node features, 50000 by 128. -/
abbrev Feat := FVec Ideal S50000x128 .f32
/-- An edge-indexed integer array (sources or destinations). -/
abbrev Edge := IVec S800000 32
/-- A per-feature vector. -/
abbrev Vec128 := FVec Ideal S128 .f32
/-- A per-node vector. -/
abbrev NodeVec := FVec Ideal S50000 .f32

/-- The destination (or source) indices as an [E, 1] column. -/
def col (e : Edge) : IVec S800000x1 32 :=
  broadcastInDim S800000x1 ![0] bcast_S800000_S800000x1_0 e

/-- Per node: max(in-degree, 1). -/
def degMax (dst : Edge) : NodeVec :=
  maximumf
    (Host.scatterAdd (F := Ideal) scatter_S50000_S800000x1_S800000_n_0_0_1
      (broadcastInDim S50000 ![] bcast_S_S50000 (constant (F := Ideal) S_ .f32 0x00000000#32))
      (col dst)
      (broadcastInDim S800000 ![] bcast_S_S800000 (constant (F := Ideal) S_ .f32 0x3F800000#32)))
    (broadcastInDim S50000 ![] bcast_S_S50000 (constant (F := Ideal) S_ .f32 0x3F800000#32))

/-- Per node: 1 / max(in-degree, 1). -/
def invDeg (dst : Edge) : NodeVec :=
  Host.divf (F := Ideal) (broadcastInDim S50000 ![] bcast_S_S50000 (constant (F := Ideal) S_ .f32 0x3F800000#32)) (degMax dst)

/-- The gather's start indices: a negative source index is wrapped by +50000. -/
def gidx (src : Edge) : IVec S800000x1 32 :=
  col (select (cmpi .slt src (broadcastInDim S800000 ![] bcast_S_S800000 (constantI S_ 32 0#32)))
    (addi src (broadcastInDim S800000 ![] bcast_S_S800000 (constantI S_ 32 50000#32))) src)

/-- Per node: the sum of the rows h[src e] over the edges e arriving at the node. -/
def scat (h : Feat) (src dst : Edge) : Feat :=
  Host.scatterAdd (F := Ideal) scatter_S50000x128_S800000x1_S800000x128_1_0_0_1
    (broadcastInDim S50000x128 ![] bcast_S_S50000x128 (constant (F := Ideal) S_ .f32 0x00000000#32))
    (col dst)
    (Host.gather gather_S50000x128_S800000x1_S800000x128_1_0_n_n_0_1_1128 h (gidx src))

/-- A per-node vector broadcast along the features. -/
def rowBcast (v : NodeVec) : Feat :=
  broadcastInDim S50000x128 ![0, 1] bcast_S50000x1_S50000x128_0_1 (broadcastInDim S50000x1 ![0] bcast_S50000_S50000x1_0 v)

/-- The mean aggregation, written with the reciprocal degree. -/
def aggK (h : Feat) (src dst : Edge) (inv : NodeVec) : Feat :=
  mulf (scat h src dst) (rowBcast inv)

/-- A per-feature vector broadcast along the nodes. -/
def colBcast (v : Vec128) : Feat :=
  broadcastInDim S50000x128 ![0, 1] bcast_S1x128_S50000x128_0_1 (broadcastInDim S1x128 ![1] bcast_S128_S1x128_1 v)

/-- The number of nodes, 50000, as a per-feature vector. -/
def nNodes : Vec128 := broadcastInDim S128 ![] bcast_S_S128 (constant (F := Ideal) S_ .f32 0x47435000#32)

/-- Column sums. -/
def colSum (a : Feat) : Vec128 :=
  Host.reduceAdd (F := Ideal) a (constant (F := Ideal) S_ .f32 0x00000000#32) reducesTo_S50000x128_S128_d0 h_S_

def mean (a : Feat) : Vec128 := Host.divf (F := Ideal) (colSum a) nNodes

/-- The deviations from the column means. -/
def dev (a : Feat) : Feat := subf a (colBcast (mean a))

def var (a : Feat) : Vec128 := Host.divf (F := Ideal) (colSum (mulf (dev a) (dev a))) nNodes

def rstd (a : Feat) : Vec128 :=
  Host.rsqrt (F := Ideal) (addf (var a) (broadcastInDim S128 ![] bcast_S_S128 (constant (F := Ideal) S_ .f32 0x3727C5AC#32)))

def scaleOf (a : Feat) (γ : Vec128) : Vec128 := mulf γ (rstd a)

def shiftOf (a : Feat) (γ β : Vec128) : Vec128 := subf β (mulf (mean a) (scaleOf a γ))

end Cert.KernelIdeal.NetK

end
-- ==== Proof.HostK.lean ====
/-
  The host stretches of the idealized kernel program, read at an ARBITRARY entry valuation W: the buffers a
  stretch computes are the network's host functions of W at the buffers the stretch reads, and a buffer it does
  not write keeps W's contents (the list of the references each stretch writes is stated once per stretch).
-/
import proofs.«161787_j75977971466899_1_alg».proof.Proof.NetDefs
import proofs.«161787_j75977971466899_1_alg».proof.Proof.Gen.KernelIdeal.Launch
import Idealize.ShloMosaic.Lib.StableHlo.Run
import Idealize.ShloMosaic.PureOps.Ideal

set_option maxRecDepth 16384

noncomputable section

namespace Cert.KernelIdeal.NetK

open Cert.KernelIdeal Cert.KernelIdeal.Gen Idealize.ShloMosaic Idealize.ShloMosaic.TcCoe Idealize.ShloMosaic.StableHlo

/-! ## The stretches at an arbitrary entry valuation -/

variable (W : Valuation τ sig (Elt Ideal))

set_option maxHeartbeats 4000000 in
theorem host0_v7 : after (hostOps0 (F := Ideal)) W (Proc.devRef (τ := τ) .tc main_v7) = invDeg (W (Proc.devRef (τ := τ) .tc main_arg2)) := by
  after_results_simp <;> rfl

set_option maxHeartbeats 4000000 in
theorem host0_v20 : after (hostOps0 (F := Ideal)) W (Proc.devRef (τ := τ) .tc main_v20)
    = aggK (W (Proc.devRef (τ := τ) .tc main_arg0)) (W (Proc.devRef (τ := τ) .tc main_arg1)) (W (Proc.devRef (τ := τ) .tc main_arg2)) (invDeg (W (Proc.devRef (τ := τ) .tc main_arg2))) := by
  after_results_simp <;> rfl

set_option maxHeartbeats 4000000 in
theorem host1_v35 : after (hostOps1 (F := Ideal)) W (Proc.devRef (τ := τ) .tc main_v35) = scaleOf (W (Proc.devRef (τ := τ) .tc main_v21)) (W (Proc.devRef (τ := τ) .tc main_arg6)) := by
  after_results_simp <;> rfl

set_option maxHeartbeats 4000000 in
theorem host1_v37 : after (hostOps1 (F := Ideal)) W (Proc.devRef (τ := τ) .tc main_v37)
    = shiftOf (W (Proc.devRef (τ := τ) .tc main_v21)) (W (Proc.devRef (τ := τ) .tc main_arg6)) (W (Proc.devRef (τ := τ) .tc main_arg7)) := by
  after_results_simp <;> rfl

set_option maxHeartbeats 4000000 in
theorem host2_v51 : after (hostOps2 (F := Ideal)) W (Proc.devRef (τ := τ) .tc main_v51)
    = aggK (W (Proc.devRef (τ := τ) .tc main_v38)) (W (Proc.devRef (τ := τ) .tc main_arg1)) (W (Proc.devRef (τ := τ) .tc main_arg2)) (W (Proc.devRef (τ := τ) .tc main_v7)) := by
  after_results_simp <;> rfl

set_option maxHeartbeats 4000000 in
theorem host3_v66 : after (hostOps3 (F := Ideal)) W (Proc.devRef (τ := τ) .tc main_v66) = scaleOf (W (Proc.devRef (τ := τ) .tc main_v52)) (W (Proc.devRef (τ := τ) .tc main_arg11)) := by
  after_results_simp <;> rfl

set_option maxHeartbeats 4000000 in
theorem host3_v68 : after (hostOps3 (F := Ideal)) W (Proc.devRef (τ := τ) .tc main_v68)
    = shiftOf (W (Proc.devRef (τ := τ) .tc main_v52)) (W (Proc.devRef (τ := τ) .tc main_arg11)) (W (Proc.devRef (τ := τ) .tc main_arg12)) := by
  after_results_simp <;> rfl

set_option maxHeartbeats 4000000 in
theorem host4_v82 : after (hostOps4 (F := Ideal)) W (Proc.devRef (τ := τ) .tc main_v82)
    = aggK (W (Proc.devRef (τ := τ) .tc main_v69)) (W (Proc.devRef (τ := τ) .tc main_arg1)) (W (Proc.devRef (τ := τ) .tc main_arg2)) (W (Proc.devRef (τ := τ) .tc main_v7)) := by
  after_results_simp <;> rfl

/-! ## What each stretch writes -/

/-- The references stretch 0 writes. -/
def written0 : List (Ref sig .tc) := [main_cst, main_v0, main_cst_0, main_v1, main_v2, main_v3, main_cst_1, main_v4, main_v5, main_cst_2, main_v6, main_v7, main_c, main_v8, main_v9, main_c_3, main_v10, main_v11, main_v12, main_v13, main_v14, main_cst_4, main_v15, main_v16, main_v17, main_v18, main_v19, main_v20]

theorem hostOps0_writes : (hostOps0 (F := Ideal)).Forall fun op => op.writes ⊆ ((written0).map (Proc.devRef (τ := τ) .tc)).toFinset := by
  simp only [hostOps0, List.Forall, nullary_writes, unary_writes, binary_writes, ternary_writes,
    Finset.singleton_subset_iff, List.mem_toFinset]
  repeat' apply And.intro
  all_goals exact List.mem_map_of_mem (by decide)

/-- A buffer stretch 0 does not write keeps its contents. -/
theorem keep0 (r : Ref sig .tc) (hr : r ∉ written0) :
    after (hostOps0 (F := Ideal)) W (Proc.devRef (τ := τ) .tc r) = W (Proc.devRef (τ := τ) .tc r) :=
  after_of_writes_sub _ W hostOps0_writes hr

/-- The references stretch 1 writes. -/
def written1 : List (Ref sig .tc) := [main_cst_5, main_v22, main_cst_6, main_v23, main_v24, main_v25, main_v26, main_v27, main_v28, main_cst_7, main_v29, main_cst_8, main_v30, main_v31, main_cst_9, main_v32, main_v33, main_v34, main_v35, main_v36, main_v37]

theorem hostOps1_writes : (hostOps1 (F := Ideal)).Forall fun op => op.writes ⊆ ((written1).map (Proc.devRef (τ := τ) .tc)).toFinset := by
  simp only [hostOps1, List.Forall, nullary_writes, unary_writes, binary_writes, ternary_writes,
    Finset.singleton_subset_iff, List.mem_toFinset]
  repeat' apply And.intro
  all_goals exact List.mem_map_of_mem (by decide)

/-- A buffer stretch 1 does not write keeps its contents. -/
theorem keep1 (r : Ref sig .tc) (hr : r ∉ written1) :
    after (hostOps1 (F := Ideal)) W (Proc.devRef (τ := τ) .tc r) = W (Proc.devRef (τ := τ) .tc r) :=
  after_of_writes_sub _ W hostOps1_writes hr

/-- The references stretch 2 writes. -/
def written2 : List (Ref sig .tc) := [main_c_10, main_v39, main_v40, main_c_11, main_v41, main_v42, main_v43, main_v44, main_v45, main_cst_12, main_v46, main_v47, main_v48, main_v49, main_v50, main_v51]

theorem hostOps2_writes : (hostOps2 (F := Ideal)).Forall fun op => op.writes ⊆ ((written2).map (Proc.devRef (τ := τ) .tc)).toFinset := by
  simp only [hostOps2, List.Forall, nullary_writes, unary_writes, binary_writes, ternary_writes,
    Finset.singleton_subset_iff, List.mem_toFinset]
  repeat' apply And.intro
  all_goals exact List.mem_map_of_mem (by decide)

/-- A buffer stretch 2 does not write keeps its contents. -/
theorem keep2 (r : Ref sig .tc) (hr : r ∉ written2) :
    after (hostOps2 (F := Ideal)) W (Proc.devRef (τ := τ) .tc r) = W (Proc.devRef (τ := τ) .tc r) :=
  after_of_writes_sub _ W hostOps2_writes hr

/-- The references stretch 3 writes. -/
def written3 : List (Ref sig .tc) := [main_cst_13, main_v53, main_cst_14, main_v54, main_v55, main_v56, main_v57, main_v58, main_v59, main_cst_15, main_v60, main_cst_16, main_v61, main_v62, main_cst_17, main_v63, main_v64, main_v65, main_v66, main_v67, main_v68]

theorem hostOps3_writes : (hostOps3 (F := Ideal)).Forall fun op => op.writes ⊆ ((written3).map (Proc.devRef (τ := τ) .tc)).toFinset := by
  simp only [hostOps3, List.Forall, nullary_writes, unary_writes, binary_writes, ternary_writes,
    Finset.singleton_subset_iff, List.mem_toFinset]
  repeat' apply And.intro
  all_goals exact List.mem_map_of_mem (by decide)

/-- A buffer stretch 3 does not write keeps its contents. -/
theorem keep3 (r : Ref sig .tc) (hr : r ∉ written3) :
    after (hostOps3 (F := Ideal)) W (Proc.devRef (τ := τ) .tc r) = W (Proc.devRef (τ := τ) .tc r) :=
  after_of_writes_sub _ W hostOps3_writes hr

/-- The references stretch 4 writes. -/
def written4 : List (Ref sig .tc) := [main_c_18, main_v70, main_v71, main_c_19, main_v72, main_v73, main_v74, main_v75, main_v76, main_cst_20, main_v77, main_v78, main_v79, main_v80, main_v81, main_v82]

theorem hostOps4_writes : (hostOps4 (F := Ideal)).Forall fun op => op.writes ⊆ ((written4).map (Proc.devRef (τ := τ) .tc)).toFinset := by
  simp only [hostOps4, List.Forall, nullary_writes, unary_writes, binary_writes, ternary_writes,
    Finset.singleton_subset_iff, List.mem_toFinset]
  repeat' apply And.intro
  all_goals exact List.mem_map_of_mem (by decide)

/-- A buffer stretch 4 does not write keeps its contents. -/
theorem keep4 (r : Ref sig .tc) (hr : r ∉ written4) :
    after (hostOps4 (F := Ideal)) W (Proc.devRef (τ := τ) .tc r) = W (Proc.devRef (τ := τ) .tc r) :=
  after_of_writes_sub _ W hostOps4_writes hr

end Cert.KernelIdeal.NetK

end
-- ==== Proof.Carry.lean ====
/-
  Buffers carried across segments.

  The program's buffer contents at the boundary after segment k are W_k: W_1 after host stretch 0, W_2 after
  region 0, W_3 after host stretch 1, … A host stretch leaves a buffer it does not write as it was (its list
  of written references is `written_s`), and a region leaves every buffer that is none of its windows' arrays
  as it was. So a reference r that no segment up to boundary k writes holds at W_k what the launch memory
  held (`W_k_of`), and one written only in stretch 0 holds at W_k what it held at W_1 (`W_k_from1`).
  One lemma per boundary, each the previous one and one more step.
-/
import proofs.«161787_j75977971466899_1_alg».proof.Proof.Gen.KernelIdeal.Frame
import proofs.«161787_j75977971466899_1_alg».proof.Proof.HostK

set_option maxRecDepth 16384

noncomputable section

namespace Cert.KernelIdeal.Chain

open Cert.KernelIdeal Cert.KernelIdeal.Gen Cert.KernelIdeal.NetK
open Idealize.ShloMosaic Idealize.ShloMosaic.TcCoe Idealize.SL.Sem

variable (m : (ℓ : Loc nD τ sig) → Buf (Elt Ideal) ℓ) (ρ : Dev nD → PrngReg) (c : Dev nD)

theorem W1_of (r : Ref sig .tc) (h0 : r ∉ written0) :
    W1 m ρ c (Proc.devRef (τ := τ) .tc r) = m ((c : Thread nD τ).loc r) :=
  (keep0 (W0 m ρ c) r h0).trans rfl

theorem W2_of (r : Ref sig .tc) (h0 : r ∉ written0) (g0 : ∀ w, Pipeline.arrRef spec0 w ≠ r) :
    W2 m ρ c (Proc.devRef (τ := τ) .tc r) = m ((c : Thread nD τ).loc r) :=
  (W2_of_ne m ρ c r g0).trans (W1_of m ρ c r h0)

theorem W3_of (r : Ref sig .tc) (h0 : r ∉ written0) (g0 : ∀ w, Pipeline.arrRef spec0 w ≠ r) (h1 : r ∉ written1) :
    W3 m ρ c (Proc.devRef (τ := τ) .tc r) = m ((c : Thread nD τ).loc r) :=
  (keep1 (W2 m ρ c) r h1).trans (W2_of m ρ c r h0 g0)

theorem W4_of (r : Ref sig .tc) (h0 : r ∉ written0) (g0 : ∀ w, Pipeline.arrRef spec0 w ≠ r) (h1 : r ∉ written1) (g1 : ∀ w, Pipeline.arrRef spec1 w ≠ r) :
    W4 m ρ c (Proc.devRef (τ := τ) .tc r) = m ((c : Thread nD τ).loc r) :=
  (W4_of_ne m ρ c r g1).trans (W3_of m ρ c r h0 g0 h1)

theorem W5_of (r : Ref sig .tc) (h0 : r ∉ written0) (g0 : ∀ w, Pipeline.arrRef spec0 w ≠ r) (h1 : r ∉ written1) (g1 : ∀ w, Pipeline.arrRef spec1 w ≠ r) (h2 : r ∉ written2) :
    W5 m ρ c (Proc.devRef (τ := τ) .tc r) = m ((c : Thread nD τ).loc r) :=
  (keep2 (W4 m ρ c) r h2).trans (W4_of m ρ c r h0 g0 h1 g1)

theorem W6_of (r : Ref sig .tc) (h0 : r ∉ written0) (g0 : ∀ w, Pipeline.arrRef spec0 w ≠ r) (h1 : r ∉ written1) (g1 : ∀ w, Pipeline.arrRef spec1 w ≠ r) (h2 : r ∉ written2) (g2 : ∀ w, Pipeline.arrRef spec2 w ≠ r) :
    W6 m ρ c (Proc.devRef (τ := τ) .tc r) = m ((c : Thread nD τ).loc r) :=
  (W6_of_ne m ρ c r g2).trans (W5_of m ρ c r h0 g0 h1 g1 h2)

theorem W7_of (r : Ref sig .tc) (h0 : r ∉ written0) (g0 : ∀ w, Pipeline.arrRef spec0 w ≠ r) (h1 : r ∉ written1) (g1 : ∀ w, Pipeline.arrRef spec1 w ≠ r) (h2 : r ∉ written2) (g2 : ∀ w, Pipeline.arrRef spec2 w ≠ r) (h3 : r ∉ written3) :
    W7 m ρ c (Proc.devRef (τ := τ) .tc r) = m ((c : Thread nD τ).loc r) :=
  (keep3 (W6 m ρ c) r h3).trans (W6_of m ρ c r h0 g0 h1 g1 h2 g2)

theorem W8_of (r : Ref sig .tc) (h0 : r ∉ written0) (g0 : ∀ w, Pipeline.arrRef spec0 w ≠ r) (h1 : r ∉ written1) (g1 : ∀ w, Pipeline.arrRef spec1 w ≠ r) (h2 : r ∉ written2) (g2 : ∀ w, Pipeline.arrRef spec2 w ≠ r) (h3 : r ∉ written3) (g3 : ∀ w, Pipeline.arrRef spec3 w ≠ r) :
    W8 m ρ c (Proc.devRef (τ := τ) .tc r) = m ((c : Thread nD τ).loc r) :=
  (W8_of_ne m ρ c r g3).trans (W7_of m ρ c r h0 g0 h1 g1 h2 g2 h3)

theorem W9_of (r : Ref sig .tc) (h0 : r ∉ written0) (g0 : ∀ w, Pipeline.arrRef spec0 w ≠ r) (h1 : r ∉ written1) (g1 : ∀ w, Pipeline.arrRef spec1 w ≠ r) (h2 : r ∉ written2) (g2 : ∀ w, Pipeline.arrRef spec2 w ≠ r) (h3 : r ∉ written3) (g3 : ∀ w, Pipeline.arrRef spec3 w ≠ r) (h4 : r ∉ written4) :
    W9 m ρ c (Proc.devRef (τ := τ) .tc r) = m ((c : Thread nD τ).loc r) :=
  (keep4 (W8 m ρ c) r h4).trans (W8_of m ρ c r h0 g0 h1 g1 h2 g2 h3 g3)

theorem W2_from1 (r : Ref sig .tc) (g0 : ∀ w, Pipeline.arrRef spec0 w ≠ r) :
    W2 m ρ c (Proc.devRef (τ := τ) .tc r) = W1 m ρ c (Proc.devRef (τ := τ) .tc r) :=
  (W2_of_ne m ρ c r g0).trans rfl

theorem W3_from1 (r : Ref sig .tc) (g0 : ∀ w, Pipeline.arrRef spec0 w ≠ r) (h1 : r ∉ written1) :
    W3 m ρ c (Proc.devRef (τ := τ) .tc r) = W1 m ρ c (Proc.devRef (τ := τ) .tc r) :=
  (keep1 (W2 m ρ c) r h1).trans (W2_from1 m ρ c r g0)

theorem W4_from1 (r : Ref sig .tc) (g0 : ∀ w, Pipeline.arrRef spec0 w ≠ r) (h1 : r ∉ written1) (g1 : ∀ w, Pipeline.arrRef spec1 w ≠ r) :
    W4 m ρ c (Proc.devRef (τ := τ) .tc r) = W1 m ρ c (Proc.devRef (τ := τ) .tc r) :=
  (W4_of_ne m ρ c r g1).trans (W3_from1 m ρ c r g0 h1)

theorem W5_from1 (r : Ref sig .tc) (g0 : ∀ w, Pipeline.arrRef spec0 w ≠ r) (h1 : r ∉ written1) (g1 : ∀ w, Pipeline.arrRef spec1 w ≠ r) (h2 : r ∉ written2) :
    W5 m ρ c (Proc.devRef (τ := τ) .tc r) = W1 m ρ c (Proc.devRef (τ := τ) .tc r) :=
  (keep2 (W4 m ρ c) r h2).trans (W4_from1 m ρ c r g0 h1 g1)

theorem W6_from1 (r : Ref sig .tc) (g0 : ∀ w, Pipeline.arrRef spec0 w ≠ r) (h1 : r ∉ written1) (g1 : ∀ w, Pipeline.arrRef spec1 w ≠ r) (h2 : r ∉ written2) (g2 : ∀ w, Pipeline.arrRef spec2 w ≠ r) :
    W6 m ρ c (Proc.devRef (τ := τ) .tc r) = W1 m ρ c (Proc.devRef (τ := τ) .tc r) :=
  (W6_of_ne m ρ c r g2).trans (W5_from1 m ρ c r g0 h1 g1 h2)

theorem W7_from1 (r : Ref sig .tc) (g0 : ∀ w, Pipeline.arrRef spec0 w ≠ r) (h1 : r ∉ written1) (g1 : ∀ w, Pipeline.arrRef spec1 w ≠ r) (h2 : r ∉ written2) (g2 : ∀ w, Pipeline.arrRef spec2 w ≠ r) (h3 : r ∉ written3) :
    W7 m ρ c (Proc.devRef (τ := τ) .tc r) = W1 m ρ c (Proc.devRef (τ := τ) .tc r) :=
  (keep3 (W6 m ρ c) r h3).trans (W6_from1 m ρ c r g0 h1 g1 h2 g2)

theorem W8_from1 (r : Ref sig .tc) (g0 : ∀ w, Pipeline.arrRef spec0 w ≠ r) (h1 : r ∉ written1) (g1 : ∀ w, Pipeline.arrRef spec1 w ≠ r) (h2 : r ∉ written2) (g2 : ∀ w, Pipeline.arrRef spec2 w ≠ r) (h3 : r ∉ written3) (g3 : ∀ w, Pipeline.arrRef spec3 w ≠ r) :
    W8 m ρ c (Proc.devRef (τ := τ) .tc r) = W1 m ρ c (Proc.devRef (τ := τ) .tc r) :=
  (W8_of_ne m ρ c r g3).trans (W7_from1 m ρ c r g0 h1 g1 h2 g2 h3)

end Cert.KernelIdeal.Chain

end
-- ==== Proof.Spec.lean ====
/-
  The two array functions that the graph network's Pallas stages compute, entry by entry, on the extended
  reals, and the predicate "every entry is a real number".

  A node-feature array has 50000 rows (nodes) and 128 columns (features).

  * `lin x hn Ws Wn b` is one SAGE linear stage: entry (r, c) is
        (Σ_k x(r,k)·Ws(k,c) + Σ_k hn(r,k)·Wn(k,c)) + b(c),
    the self features times the self weights plus the aggregated neighbour features times the neighbour
    weights plus the bias of the column.
  * `bn h scale shift` is the folded batch normalisation followed by the rectifier: entry (r, c) is
        max (h(r,c)·scale(c) + shift(c)) 0.

  Row r of a result depends on row r of the row-indexed operands only, which is why a stage may be computed
  a block of rows at a time.
-/
import Mathlib
import Idealize.ShloMosaic.PureOps.Ideal
import Idealize.ShloMosaic.Lib.ValueIdx

noncomputable section

namespace Cert.Sage

open Idealize.ShloMosaic Idealize.ShloMosaic.ValueIdx

/-- Node features: 50000 nodes by 128 features. -/
abbrev SN : Shape := ⟨2, ![50000, 128]⟩
/-- A weight matrix: 128 by 128. -/
abbrev SW : Shape := ⟨2, ![128, 128]⟩
/-- A per-feature vector: 128. -/
abbrev SV : Shape := ⟨1, ![128]⟩

/-- One entry of the SAGE linear stage. -/
def linAt (x hn : SN.Idx → EReal) (Ws Wn : SW.Idx → EReal) (b : SV.Idx → EReal) (r : Fin 50000) (c : Fin 128) : EReal :=
  (∑ k : Fin 128, x (ix2 r k) * Ws (ix2 k c) + ∑ k : Fin 128, hn (ix2 r k) * Wn (ix2 k c)) + b (ix1 c)

/-- The SAGE linear stage as an array. -/
def lin (x hn : SN.Idx → EReal) (Ws Wn : SW.Idx → EReal) (b : SV.Idx → EReal) : SN.Idx → EReal :=
  fun j => linAt x hn Ws Wn b (j 0) (j 1)

theorem lin_ix2 (x hn : SN.Idx → EReal) (Ws Wn : SW.Idx → EReal) (b : SV.Idx → EReal) (r : Fin 50000) (c : Fin 128) :
    lin x hn Ws Wn b (ix2 r c) = linAt x hn Ws Wn b r c := rfl

/-- One entry of the folded batch normalisation followed by the rectifier. -/
def bnAt (h : SN.Idx → EReal) (scale shift : SV.Idx → EReal) (r : Fin 50000) (c : Fin 128) : EReal :=
  max (h (ix2 r c) * scale (ix1 c) + shift (ix1 c)) 0

/-- The folded batch normalisation and rectifier as an array. -/
def bn (h : SN.Idx → EReal) (scale shift : SV.Idx → EReal) : SN.Idx → EReal :=
  fun j => bnAt h scale shift (j 0) (j 1)

theorem bn_ix2 (h : SN.Idx → EReal) (scale shift : SV.Idx → EReal) (r : Fin 50000) (c : Fin 128) :
    bn h scale shift (ix2 r c) = bnAt h scale shift r c := rfl

/-- Every entry of an array of extended reals is (the coercion of) a real number. -/
def AllReal {S : Shape} (v : S.Idx → EReal) : Prop := ∀ i, ∃ r : ℝ, v i = (r : EReal)

end Cert.Sage

end
-- ==== Proof.NetKDefs.lean ====
/-
  The network in the kernel program's form, as one function of its arguments.

  A hidden layer: aggregate the neighbours' rows and scale by the reciprocal degree; apply the linear stage;
  fold the batch statistics of the result into a per-feature scale and shift; apply them and the rectifier.
  The network: two hidden layers, then one more aggregation and linear stage.
-/
import proofs.«161787_j75977971466899_1_alg».proof.Proof.NetDefs
import proofs.«161787_j75977971466899_1_alg».proof.Proof.Spec

noncomputable section

namespace Cert.Sage.Layer

open Cert.KernelIdeal Cert.KernelIdeal.NetK Idealize.ShloMosaic

/-- A weight matrix. -/
abbrev MatK := FVec Ideal S128x128 .f32

/-- A hidden layer in the kernel program's form. -/
def layerK (h : Feat) (src dst : Edge) (Ws Wn : MatK) (b γ β : Vec128) : Feat :=
  bn (lin h (aggK h src dst (invDeg dst)) Ws Wn b)
    (scaleOf (lin h (aggK h src dst (invDeg dst)) Ws Wn b) γ)
    (shiftOf (lin h (aggK h src dst (invDeg dst)) Ws Wn b) γ β)

/-- The network in the kernel program's form. -/
def netK (x : Feat) (src dst : Edge) (Ws1 Wn1 : MatK) (b1 g1 be1 : Vec128) (Ws2 Wn2 : MatK) (b2 g2 be2 : Vec128)
    (Ws3 Wn3 : MatK) (b3 : Vec128) : Feat :=
  lin (layerK (layerK x src dst Ws1 Wn1 b1 g1 be1) src dst Ws2 Wn2 b2 g2 be2)
    (aggK (layerK (layerK x src dst Ws1 Wn1 b1 g1 be1) src dst Ws2 Wn2 b2 g2 be2) src dst (invDeg dst)) Ws3 Wn3 b3

end Cert.Sage.Layer

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LinCommon.lean ====
/-
  Entry-level facts shared by the three SAGE-linear regions of the graph network.

  Each of those regions computes, one block of 5000 rows at a time, the array x·Ws + hn·Wn + b: entry (r, c) is
      (Σ_k x(r,k)·Ws(k,c) + Σ_k hn(r,k)·Wn(k,c)) + b(c).
  What is proved here concerns one block and mentions no region: the two matrix products read at an entry (each is
  the sum over the 128 contracted positions; the narrowing of the operands to a shorter float format in front of a
  product is the identity on extended reals), the bias vector viewed as a row and repeated down the rows, and the step
  from a block's entry to the whole-array stage: since entry (r, c) of the stage reads only row r of the two
  row-indexed operands, the block that holds row r of both computes that entry.
-/
import proofs.«161787_j75977971466899_1_alg».proof.Proof.Gen.KernelIdeal
import proofs.«161787_j75977971466899_1_alg».proof.Proof.Spec
import proofs.«161787_j75977971466899_1_alg».proof.Proof.LibDot
import Idealize.ShloMosaic.Lib.Pipeline.Value
import Idealize.ShloMosaic.Lib.ValueIdx

noncomputable section

namespace Cert.KernelIdeal.LinValue

open Cert.KernelIdeal Cert.KernelIdeal.Gen Idealize.ShloMosaic Idealize.ShloMosaic.ValueIdx

/-- The zero offsets of a whole-buffer rectangle of rank two, as a constant function. -/
theorem zero2 : (![0, 0] : Fin 2 → Nat) = fun _ => 0 := funext fun a => by fin_cases a <;> rfl
/-- The zero offset of a whole-buffer rectangle of rank one, as a constant function. -/
theorem zero1 : (![0] : Fin 1 → Nat) = fun _ => 0 := funext fun a => by fin_cases a <;> rfl

/-- The kernel's product record is a plain rows-by-columns product: it contracts the 128 columns of the left
    operand with the 128 rows of the right one. -/
theorem dot_plain : Cert.LibDot.Plain dot_S5000x128_S128x128_S5000x128_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

/-- One product of the kernel into a zero accumulator, at entry (p, q): the sum over the 128 contracted positions. -/
theorem mm_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) :=
  Cert.LibDot.matmul_ix2 dot_plain none a b p q

/-- The bias, a vector of 128, viewed as one row and repeated down the 5000 rows, reads its column's entry. -/
theorem bias_apply (v : FVec Ideal S128 .f32) (h1 : S128.ShapeCasts S1x128) (h2 : S1x128.Broadcasts S5000x128)
    (p : Fin 5000) (q : Fin 128) :
    broadcastTo S5000x128 (shapeCast S1x128 v h1) h2 (ix2 p q) = v (ix1 q) := by
  refine (broadcastTo_apply (shapeCast S1x128 v h1) h2 (ix2 p q) (ix2 (0 : Fin 1) q) fun a => ?_).trans ?_
  · match a with
    | ⟨0, _⟩ => rfl
    | ⟨1, _⟩ => rfl
  · refine (shapeCast_addUnit_apply ![128] v h1 (ix2 (0 : Fin 1) q)).trans (congrArg v ?_)
    funext a
    match a with
    | ⟨0, _⟩ => rfl

/-- From a block's entries to the whole-array stage: if row p of the two row-blocked operands is row r of the arrays,
    and the weight and bias operands agree with the arrays where they are read, then the block's value at (p, q) is
    the stage's entry (r, q). -/
theorem lin_entry (x hn : Cert.Sage.SN.Idx → EReal) (Ws Wn : Cert.Sage.SW.Idx → EReal) (b : Cert.Sage.SV.Idx → EReal)
    (v0 v2 : Vec Ideal S5000x128 .f32) (v5 v7 : Vec Ideal S128x128 .f32) (v12 : Vec Ideal S128 .f32)
    (p : Fin 5000) (q : Fin 128) (r : Fin 50000)
    (h0 : ∀ k : Fin 128, v0 (ix2 p k) = x (ix2 r k)) (h2 : ∀ k : Fin 128, v2 (ix2 p k) = hn (ix2 r k))
    (h5 : ∀ k : Fin 128, v5 (ix2 k q) = Ws (ix2 k q)) (h7 : ∀ k : Fin 128, v7 (ix2 k q) = Wn (ix2 k q))
    (h12 : v12 (ix1 q) = b (ix1 q)) :
    (∑ k : Fin 128, v0 (ix2 p k) * v5 (ix2 k q) + ∑ k : Fin 128, v2 (ix2 p k) * v7 (ix2 k q)) + v12 (ix1 q)
      = Cert.Sage.lin x hn Ws Wn b (ix2 r q) := by
  rw [Cert.Sage.lin_ix2]
  unfold Cert.Sage.linAt
  rw [h12]
  refine congrArg₂ (· + ·) (congrArg₂ (· + ·) (Finset.sum_congr rfl fun k _ => ?_) (Finset.sum_congr rfl fun k _ => ?_)) rfl
  · rw [h0, h5]
  · rw [h2, h7]

end Cert.KernelIdeal.LinValue

end
-- ==== Proof.Lin0.lean ====
/-
  The first SAGE-linear region of the graph network, read as a whole array.

  The region runs over ten grid points. At point t it is given rows 5000·t … 5000·t + 4999 of the two node-feature
  operands (the features themselves and the aggregated neighbour features), all of the two 128 × 128 weight matrices
  and all of the bias vector, and it writes rows 5000·t … 5000·t + 4999 of the result. Entry (p, q) of what it writes
  is (Σ_k x(5000·t+p, k)·Ws(k, q) + Σ_k hn(5000·t+p, k)·Wn(k, q)) + b(q), which is entry (5000·t + p, q) of the
  whole-array stage, because that entry reads only row 5000·t + p of the two node-feature arrays. The ten blocks of
  5000 rows cover the 50000 rows (row r lies in the block of point r / 5000), so after the region the result array is
  the stage of the arrays the region was entered with.
-/
import proofs.«161787_j75977971466899_1_alg».proof.Proof.Gen.KernelIdeal.Frame
import proofs.«161787_j75977971466899_1_alg».proof.Proof.LinCommon
import Idealize.ShloMosaic.Lib.Pipeline.Value
import Idealize.ShloMosaic.Lib.ValueIdx

noncomputable section

namespace Cert.KernelIdeal.LinValue

open Cert.KernelIdeal Cert.KernelIdeal.Gen Idealize.ShloMosaic Idealize.ShloMosaic.TcCoe Idealize.ShloMosaic.ValueIdx
open Idealize.ShloMosaic.Pipeline (Dat)

/-- The value the kernel stores at row p, column q of a block: the row of the first operand against column q of the
    self weights, plus the row of the second against column q of the neighbour weights, plus the bias of column q.
    The second operand passes through a reshape to its own shape, which changes nothing, and the narrowing casts in
    front of the products are the identity on extended reals. -/
theorem pay0_apply (v0 v2 : Vec Ideal S5000x128 .f32) (v5 v7 : Vec Ideal S128x128 .f32) (v12 : Vec Ideal S128 .f32)
    (p : Fin 5000) (q : Fin 128) :
    k0_pay1 v0 v2 v5 v7 v12 (ix2 p q)
      = (∑ k : Fin 128, v0 (ix2 p k) * v5 (ix2 k q) + ∑ k : Fin 128, v2 (ix2 p k) * v7 (ix2 k q)) + v12 (ix1 q) := by
  unfold k0_pay1
  rw [addf_apply, addf_apply, mm_apply, mm_apply, bias_apply, shapeCast_self]
  rfl

/-- The printed index maps, decided over the ten grid points: at point t the two row-blocked inputs and the output are
    at block (t, 0); the weight and bias windows are at block 0 at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b)) (c : Dev nD) (t : Fin cfg0.N)

/-- Row p of the first operand's block at point t is row 5000·t + p of its array. -/
theorem blk0_0_apply (p : Fin 5000) (k : Fin 128) (r : Fin 50000) (hr : r.val = 5000 * t.val + p.val) :
    (iblk0 V c 0 t : Vec Ideal S5000x128 .f32) (ix2 p k) = (V c main_arg0 : Cert.Sage.SN.Idx → EReal) (ix2 r k) := by
  unfold iblk0
  rw [View.read_apply]
  show V c main_arg0 _ = V c main_arg0 _
  congr 1
  funext a
  apply Fin.ext
  obtain ⟨e00, e01, -⟩ := idx_facts0 t
  match a with
  | ⟨0, _⟩ => show win0_0.index t (0 : Fin 2) * 5000 + 1 * p.val = r.val; rw [e00, hr]; omega
  | ⟨1, _⟩ => show win0_0.index t (1 : Fin 2) * 128 + 1 * k.val = k.val; rw [e01]; omega

/-- Row p of the second operand's block at point t is row 5000·t + p of its array. -/
theorem blk0_1_apply (p : Fin 5000) (k : Fin 128) (r : Fin 50000) (hr : r.val = 5000 * t.val + p.val) :
    (iblk0 V c 1 t : Vec Ideal S5000x128 .f32) (ix2 p k) = (V c main_v20 : Cert.Sage.SN.Idx → EReal) (ix2 r k) := by
  unfold iblk0
  rw [View.read_apply]
  show V c main_v20 _ = V c main_v20 _
  congr 1
  funext a
  apply Fin.ext
  obtain ⟨-, -, e10, e11, -⟩ := idx_facts0 t
  match a with
  | ⟨0, _⟩ => show win0_1.index t (0 : Fin 2) * 5000 + 1 * p.val = r.val; rw [e10, hr]; omega
  | ⟨1, _⟩ => show win0_1.index t (1 : Fin 2) * 128 + 1 * k.val = k.val; rw [e11]; omega

/-- The self-weight window's block is the whole weight matrix at every point. -/
theorem blk0_2_apply (k q : Fin 128) :
    (iblk0 V c 2 t : Vec Ideal S128x128 .f32) (ix2 k q) = (V c main_arg3 : Cert.Sage.SW.Idx → EReal) (ix2 k q) := by
  unfold iblk0
  rw [View.read_apply]
  show V c main_arg3 _ = V c main_arg3 _
  congr 1
  funext a
  apply Fin.ext
  obtain ⟨-, -, -, -, e20, e21, -⟩ := idx_facts0 t
  match a with
  | ⟨0, _⟩ => show win0_2.index t (0 : Fin 2) * 128 + 1 * k.val = k.val; rw [e20]; omega
  | ⟨1, _⟩ => show win0_2.index t (1 : Fin 2) * 128 + 1 * q.val = q.val; rw [e21]; omega

/-- The neighbour-weight window's block is the whole weight matrix at every point. -/
theorem blk0_3_apply (k q : Fin 128) :
    (iblk0 V c 3 t : Vec Ideal S128x128 .f32) (ix2 k q) = (V c main_arg4 : Cert.Sage.SW.Idx → EReal) (ix2 k q) := by
  unfold iblk0
  rw [View.read_apply]
  show V c main_arg4 _ = V c main_arg4 _
  congr 1
  funext a
  apply Fin.ext
  obtain ⟨-, -, -, -, -, -, e30, e31, -⟩ := idx_facts0 t
  match a with
  | ⟨0, _⟩ => show win0_3.index t (0 : Fin 2) * 128 + 1 * k.val = k.val; rw [e30]; omega
  | ⟨1, _⟩ => show win0_3.index t (1 : Fin 2) * 128 + 1 * q.val = q.val; rw [e31]; omega

/-- The bias window's block is the whole bias vector at every point. -/
theorem blk0_4_apply (q : Fin 128) :
    (iblk0 V c 4 t : Vec Ideal S128 .f32) (ix1 q) = (V c main_arg5 : Cert.Sage.SV.Idx → EReal) (ix1 q) := by
  unfold iblk0
  rw [View.read_apply]
  show V c main_arg5 _ = V c main_arg5 _
  congr 1
  funext a
  apply Fin.ext
  obtain ⟨-, -, -, -, -, -, -, -, e40, -⟩ := idx_facts0 t
  match a with
  | ⟨0, _⟩ => show win0_4.index t (0 : Fin 1) * 128 + 1 * q.val = q.val; rw [e40]; omega

/-- WHAT POINT t WRITES BACK is block t of the stage computed from the whole arrays: entry (p, q) of the block is entry
    (5000·t + p, q) of the stage, which reads row 5000·t + p of the two node-feature arrays — row p of their blocks —
    and all of the weights and the bias. -/
theorem flushed0 : (dat0 V c).flushed 5 t
    = ((cfg0.win 5).blk t).view.read (Elt Ideal)
        (Cert.Sage.lin (V c main_arg0) (V c main_v20) (V c main_arg3) (V c main_arg4) (V c main_arg5)) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  funext j
  obtain ⟨p, q, rfl⟩ : ∃ (p : Fin 5000) (q : Fin 128), j = ix2 p q := ⟨j 0, j 1, eq_ix2 j⟩
  have ht : t.val < 10 := lt_of_lt_of_eq t.isLt N_0
  have hp : p.val < 5000 := p.isLt
  obtain ⟨r, hr⟩ : ∃ r : Fin 50000, r.val = 5000 * t.val + p.val := ⟨⟨5000 * t.val + p.val, by omega⟩, rfl⟩
  refine (pay0_apply (iblk0 V c 0 t) (iblk0 V c 1 t) (iblk0 V c 2 t) (iblk0 V c 3 t) (iblk0 V c 4 t) p q).trans ?_
  rw [View.read_apply]
  have hemb : ((cfg0.win 5).blk t).view.emb (ix2 p q) = ix2 r q := by
    funext a
    apply Fin.ext
    obtain ⟨-, -, -, -, -, -, -, -, -, e50, e51⟩ := idx_facts0 t
    match a with
    | ⟨0, _⟩ => show win0_5.index t (0 : Fin 2) * 5000 + 1 * p.val = r.val; rw [e50, hr]; omega
    | ⟨1, _⟩ => show win0_5.index t (1 : Fin 2) * 128 + 1 * q.val = q.val; rw [e51]; omega
  rw [hemb]
  exact lin_entry (V c main_arg0) (V c main_v20) (V c main_arg3) (V c main_arg4) (V c main_arg5)
    (iblk0 V c 0 t) (iblk0 V c 1 t) (iblk0 V c 2 t) (iblk0 V c 3 t) (iblk0 V c 4 t) p q r
    (fun k => blk0_0_apply V c t p k r hr) (fun k => blk0_1_apply V c t p k r hr)
    (fun k => blk0_2_apply V c t k q) (fun k => blk0_3_apply V c t k q) (blk0_4_apply V c t q)

end Blocks

/-- An index of the result array is in point t's block iff each coordinate is in the block's range on its axis. -/
theorem mem_blk0 (t : Fin cfg0.N) (i : S50000x128.Idx) :
    i ∈ ((cfg0.win 5).blk t).view.set
      ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- The ten blocks of 5000 rows cover the 50000 rows: row r is in the block of point r / 5000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  refine ⟨t, flush0_5 t, ?_⟩
  rw [mem_blk0]
  obtain ⟨-, -, -, -, -, -, -, -, -, e50, e51⟩ := idx_facts0 t
  intro a
  match a with
  | ⟨0, _⟩ =>
    show win0_5.index t (0 : Fin 2) * 5000 ≤ (i 0).val ∧ (i 0).val < win0_5.index t (0 : Fin 2) * 5000 + 5000
    rw [e50, ht]; omega
  | ⟨1, _⟩ =>
    show win0_5.index t (1 : Fin 2) * 128 ≤ (i 1).val ∧ (i 1).val < win0_5.index t (1 : Fin 2) * 128 + 128
    rw [e51]; omega

/-- THE RESULT ARRAY of the first SAGE-linear region, after the region: the stage of the arrays the region finds. -/
theorem lin0_final (V : (c : Dev nD) → (b : Ref sig .tc) → Buf (Elt Ideal) ((c : Thread nD τ).loc b)) (c : Dev nD) :
    (Gen.dat0 (F := Ideal) V c).arrAt 5 cfg0.N
      = Cert.Sage.lin (V c main_arg0) (V c main_v20) (V c main_arg3) (V c main_arg4) (V c main_arg5) :=
  (dat0 V c).arrAt_eq_of_cover 5
    (Cert.Sage.lin (V c main_arg0) (V c main_v20) (V c main_arg3) (V c main_arg4) (V c main_arg5))
    (fun t _ => flushed0 V c t) cover0

end Cert.KernelIdeal.LinValue

end
-- ==== Proof.Lin2.lean ====
/-
  The second SAGE-linear region of the graph network, read as a whole array.

  The region runs over ten grid points. At point t it is given rows 5000·t … 5000·t + 4999 of the two node-feature
  operands (the features themselves and the aggregated neighbour features), all of the two 128 × 128 weight matrices
  and all of the bias vector, and it writes rows 5000·t … 5000·t + 4999 of the result. Entry (p, q) of what it writes
  is (Σ_k x(5000·t+p, k)·Ws(k, q) + Σ_k hn(5000·t+p, k)·Wn(k, q)) + b(q), which is entry (5000·t + p, q) of the
  whole-array stage, because that entry reads only row 5000·t + p of the two node-feature arrays. The ten blocks of
  5000 rows cover the 50000 rows (row r lies in the block of point r / 5000), so after the region the result array is
  the stage of the arrays the region was entered with.
-/
import proofs.«161787_j75977971466899_1_alg».proof.Proof.Gen.KernelIdeal.Frame
import proofs.«161787_j75977971466899_1_alg».proof.Proof.LinCommon
import Idealize.ShloMosaic.Lib.Pipeline.Value
import Idealize.ShloMosaic.Lib.ValueIdx

noncomputable section

namespace Cert.KernelIdeal.LinValue

open Cert.KernelIdeal Cert.KernelIdeal.Gen Idealize.ShloMosaic Idealize.ShloMosaic.TcCoe Idealize.ShloMosaic.ValueIdx
open Idealize.ShloMosaic.Pipeline (Dat)

/-- The value the kernel stores at row p, column q of a block: the row of the first operand against column q of the
    self weights, plus the row of the second against column q of the neighbour weights, plus the bias of column q.
    Both row-blocked operands pass through a reshape to their own shape, which changes nothing, and the narrowing casts
    in front of the products are the identity on extended reals. -/
theorem pay2_apply (v0 v2 : Vec Ideal S5000x128 .f32) (v5 v7 : Vec Ideal S128x128 .f32) (v12 : Vec Ideal S128 .f32)
    (p : Fin 5000) (q : Fin 128) :
    k2_pay1 v0 v2 v5 v7 v12 (ix2 p q)
      = (∑ k : Fin 128, v0 (ix2 p k) * v5 (ix2 k q) + ∑ k : Fin 128, v2 (ix2 p k) * v7 (ix2 k q)) + v12 (ix1 q) := by
  unfold k2_pay1
  rw [addf_apply, addf_apply, mm_apply, mm_apply, bias_apply, shapeCast_self, shapeCast_self]
  rfl

/-- The printed index maps, decided over the ten grid points: at point t the two row-blocked inputs and the output are
    at block (t, 0); the weight and bias windows are at block 0 at every point. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

section Blocks
variable (V : (c : Dev nD) → (b : Ref sig .tc) → Buf (Elt Ideal) ((c : Thread nD τ).loc b)) (c : Dev nD) (t : Fin cfg2.N)

/-- Row p of the first operand's block at point t is row 5000·t + p of its array. -/
theorem blk2_0_apply (p : Fin 5000) (k : Fin 128) (r : Fin 50000) (hr : r.val = 5000 * t.val + p.val) :
    (iblk2 V c 0 t : Vec Ideal S5000x128 .f32) (ix2 p k) = (V c main_v38 : Cert.Sage.SN.Idx → EReal) (ix2 r k) := by
  unfold iblk2
  rw [View.read_apply]
  show V c main_v38 _ = V c main_v38 _
  congr 1
  funext a
  apply Fin.ext
  obtain ⟨e00, e01, -⟩ := idx_facts2 t
  match a with
  | ⟨0, _⟩ => show win2_0.index t (0 : Fin 2) * 5000 + 1 * p.val = r.val; rw [e00, hr]; omega
  | ⟨1, _⟩ => show win2_0.index t (1 : Fin 2) * 128 + 1 * k.val = k.val; rw [e01]; omega

/-- Row p of the second operand's block at point t is row 5000·t + p of its array. -/
theorem blk2_1_apply (p : Fin 5000) (k : Fin 128) (r : Fin 50000) (hr : r.val = 5000 * t.val + p.val) :
    (iblk2 V c 1 t : Vec Ideal S5000x128 .f32) (ix2 p k) = (V c main_v51 : Cert.Sage.SN.Idx → EReal) (ix2 r k) := by
  unfold iblk2
  rw [View.read_apply]
  show V c main_v51 _ = V c main_v51 _
  congr 1
  funext a
  apply Fin.ext
  obtain ⟨-, -, e10, e11, -⟩ := idx_facts2 t
  match a with
  | ⟨0, _⟩ => show win2_1.index t (0 : Fin 2) * 5000 + 1 * p.val = r.val; rw [e10, hr]; omega
  | ⟨1, _⟩ => show win2_1.index t (1 : Fin 2) * 128 + 1 * k.val = k.val; rw [e11]; omega

/-- The self-weight window's block is the whole weight matrix at every point. -/
theorem blk2_2_apply (k q : Fin 128) :
    (iblk2 V c 2 t : Vec Ideal S128x128 .f32) (ix2 k q) = (V c main_arg8 : Cert.Sage.SW.Idx → EReal) (ix2 k q) := by
  unfold iblk2
  rw [View.read_apply]
  show V c main_arg8 _ = V c main_arg8 _
  congr 1
  funext a
  apply Fin.ext
  obtain ⟨-, -, -, -, e20, e21, -⟩ := idx_facts2 t
  match a with
  | ⟨0, _⟩ => show win2_2.index t (0 : Fin 2) * 128 + 1 * k.val = k.val; rw [e20]; omega
  | ⟨1, _⟩ => show win2_2.index t (1 : Fin 2) * 128 + 1 * q.val = q.val; rw [e21]; omega

/-- The neighbour-weight window's block is the whole weight matrix at every point. -/
theorem blk2_3_apply (k q : Fin 128) :
    (iblk2 V c 3 t : Vec Ideal S128x128 .f32) (ix2 k q) = (V c main_arg9 : Cert.Sage.SW.Idx → EReal) (ix2 k q) := by
  unfold iblk2
  rw [View.read_apply]
  show V c main_arg9 _ = V c main_arg9 _
  congr 1
  funext a
  apply Fin.ext
  obtain ⟨-, -, -, -, -, -, e30, e31, -⟩ := idx_facts2 t
  match a with
  | ⟨0, _⟩ => show win2_3.index t (0 : Fin 2) * 128 + 1 * k.val = k.val; rw [e30]; omega
  | ⟨1, _⟩ => show win2_3.index t (1 : Fin 2) * 128 + 1 * q.val = q.val; rw [e31]; omega

/-- The bias window's block is the whole bias vector at every point. -/
theorem blk2_4_apply (q : Fin 128) :
    (iblk2 V c 4 t : Vec Ideal S128 .f32) (ix1 q) = (V c main_arg10 : Cert.Sage.SV.Idx → EReal) (ix1 q) := by
  unfold iblk2
  rw [View.read_apply]
  show V c main_arg10 _ = V c main_arg10 _
  congr 1
  funext a
  apply Fin.ext
  obtain ⟨-, -, -, -, -, -, -, -, e40, -⟩ := idx_facts2 t
  match a with
  | ⟨0, _⟩ => show win2_4.index t (0 : Fin 1) * 128 + 1 * q.val = q.val; rw [e40]; omega

/-- WHAT POINT t WRITES BACK is block t of the stage computed from the whole arrays: entry (p, q) of the block is entry
    (5000·t + p, q) of the stage, which reads row 5000·t + p of the two node-feature arrays — row p of their blocks —
    and all of the weights and the bias. -/
theorem flushed2 : (dat2 V c).flushed 5 t
    = ((cfg2.win 5).blk t).view.read (Elt Ideal)
        (Cert.Sage.lin (V c main_v38) (V c main_v51) (V c main_arg8) (V c main_arg9) (V c main_arg10)) := by
  show (cfg2.win 5).cut (grid2.coords t) ((dat2 V c).after 5 t) = _
  rw [after2_5]
  unfold out2_5
  rw [View.canon_unit_zero zero2]
  simp only [View.ld_unit_zero (S := S5000x128) zero2, View.ld_unit_zero (S := S128x128) zero2, View.ld_unit_zero (S := S128) zero1]
  funext j
  obtain ⟨p, q, rfl⟩ : ∃ (p : Fin 5000) (q : Fin 128), j = ix2 p q := ⟨j 0, j 1, eq_ix2 j⟩
  have ht : t.val < 10 := lt_of_lt_of_eq t.isLt N_2
  have hp : p.val < 5000 := p.isLt
  obtain ⟨r, hr⟩ : ∃ r : Fin 50000, r.val = 5000 * t.val + p.val := ⟨⟨5000 * t.val + p.val, by omega⟩, rfl⟩
  refine (pay2_apply (iblk2 V c 0 t) (iblk2 V c 1 t) (iblk2 V c 2 t) (iblk2 V c 3 t) (iblk2 V c 4 t) p q).trans ?_
  rw [View.read_apply]
  have hemb : ((cfg2.win 5).blk t).view.emb (ix2 p q) = ix2 r q := by
    funext a
    apply Fin.ext
    obtain ⟨-, -, -, -, -, -, -, -, -, e50, e51⟩ := idx_facts2 t
    match a with
    | ⟨0, _⟩ => show win2_5.index t (0 : Fin 2) * 5000 + 1 * p.val = r.val; rw [e50, hr]; omega
    | ⟨1, _⟩ => show win2_5.index t (1 : Fin 2) * 128 + 1 * q.val = q.val; rw [e51]; omega
  rw [hemb]
  exact lin_entry (V c main_v38) (V c main_v51) (V c main_arg8) (V c main_arg9) (V c main_arg10)
    (iblk2 V c 0 t) (iblk2 V c 1 t) (iblk2 V c 2 t) (iblk2 V c 3 t) (iblk2 V c 4 t) p q r
    (fun k => blk2_0_apply V c t p k r hr) (fun k => blk2_1_apply V c t p k r hr)
    (fun k => blk2_2_apply V c t k q) (fun k => blk2_3_apply V c t k q) (blk2_4_apply V c t q)

end Blocks

/-- An index of the result array is in point t's block iff each coordinate is in the block's range on its axis. -/
theorem mem_blk2 (t : Fin cfg2.N) (i : S50000x128.Idx) :
    i ∈ ((cfg2.win 5).blk t).view.set
      ↔ ∀ a : Fin 2, win2_5.index t a * S5000x128.size a ≤ (i a).val ∧ (i a).val < win2_5.index t a * S5000x128.size a + S5000x128.size a := by
  show i ∈ ((View.whole main_v52).slice (win2_5.rect t)).set ↔ _
  rw [View.set_slice_whole, Rect.mem_set_unit]
  exact Iff.rfl

/-- The ten blocks of 5000 rows cover the 50000 rows: row r is in the block of point r / 5000. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by rw [show cfg2.N = 10 from N_2]; omega⟩, rfl⟩
  refine ⟨t, flush2_5 t, ?_⟩
  rw [mem_blk2]
  obtain ⟨-, -, -, -, -, -, -, -, -, e50, e51⟩ := idx_facts2 t
  intro a
  match a with
  | ⟨0, _⟩ =>
    show win2_5.index t (0 : Fin 2) * 5000 ≤ (i 0).val ∧ (i 0).val < win2_5.index t (0 : Fin 2) * 5000 + 5000
    rw [e50, ht]; omega
  | ⟨1, _⟩ =>
    show win2_5.index t (1 : Fin 2) * 128 ≤ (i 1).val ∧ (i 1).val < win2_5.index t (1 : Fin 2) * 128 + 128
    rw [e51]; omega

/-- THE RESULT ARRAY of the second SAGE-linear region, after the region: the stage of the arrays the region finds. -/
theorem lin2_final (V : (c : Dev nD) → (b : Ref sig .tc) → Buf (Elt Ideal) ((c : Thread nD τ).loc b)) (c : Dev nD) :
    (Gen.dat2 (F := Ideal) V c).arrAt 5 cfg2.N
      = Cert.Sage.lin (V c main_v38) (V c main_v51) (V c main_arg8) (V c main_arg9) (V c main_arg10) :=
  (dat2 V c).arrAt_eq_of_cover 5
    (Cert.Sage.lin (V c main_v38) (V c main_v51) (V c main_arg8) (V c main_arg9) (V c main_arg10))
    (fun t _ => flushed2 V c t) cover2

end Cert.KernelIdeal.LinValue

end
-- ==== Proof.Lin4.lean ====
/-
  The third SAGE-linear region of the graph network, read as a whole array.

  The region runs over ten grid points. At point t it is given rows 5000·t … 5000·t + 4999 of the two node-feature
  operands (the features themselves and the aggregated neighbour features), all of the two 128 × 128 weight matrices
  and all of the bias vector, and it writes rows 5000·t … 5000·t + 4999 of the result. Entry (p, q) of what it writes
  is (Σ_k x(5000·t+p, k)·Ws(k, q) + Σ_k hn(5000·t+p, k)·Wn(k, q)) + b(q), which is entry (5000·t + p, q) of the
  whole-array stage, because that entry reads only row 5000·t + p of the two node-feature arrays. The ten blocks of
  5000 rows cover the 50000 rows (row r lies in the block of point r / 5000), so after the region the result array is
  the stage of the arrays the region was entered with.
-/
import proofs.«161787_j75977971466899_1_alg».proof.Proof.Gen.KernelIdeal.Frame
import proofs.«161787_j75977971466899_1_alg».proof.Proof.LinCommon
import Idealize.ShloMosaic.Lib.Pipeline.Value
import Idealize.ShloMosaic.Lib.ValueIdx

noncomputable section

namespace Cert.KernelIdeal.LinValue

open Cert.KernelIdeal Cert.KernelIdeal.Gen Idealize.ShloMosaic Idealize.ShloMosaic.TcCoe Idealize.ShloMosaic.ValueIdx
open Idealize.ShloMosaic.Pipeline (Dat)

/-- The value the kernel stores at row p, column q of a block: the row of the first operand against column q of the
    self weights, plus the row of the second against column q of the neighbour weights, plus the bias of column q.
    Both row-blocked operands pass through a reshape to their own shape, which changes nothing, and the narrowing casts
    in front of the products are the identity on extended reals. -/
theorem pay4_apply (v0 v2 : Vec Ideal S5000x128 .f32) (v5 v7 : Vec Ideal S128x128 .f32) (v12 : Vec Ideal S128 .f32)
    (p : Fin 5000) (q : Fin 128) :
    k4_pay1 v0 v2 v5 v7 v12 (ix2 p q)
      = (∑ k : Fin 128, v0 (ix2 p k) * v5 (ix2 k q) + ∑ k : Fin 128, v2 (ix2 p k) * v7 (ix2 k q)) + v12 (ix1 q) := by
  unfold k4_pay1
  rw [addf_apply, addf_apply, mm_apply, mm_apply, bias_apply, shapeCast_self, shapeCast_self]
  rfl

/-- The printed index maps, decided over the ten grid points: at point t the two row-blocked inputs and the output are
    at block (t, 0); the weight and bias windows are at block 0 at every point. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

section Blocks
variable (V : (c : Dev nD) → (b : Ref sig .tc) → Buf (Elt Ideal) ((c : Thread nD τ).loc b)) (c : Dev nD) (t : Fin cfg4.N)

/-- Row p of the first operand's block at point t is row 5000·t + p of its array. -/
theorem blk4_0_apply (p : Fin 5000) (k : Fin 128) (r : Fin 50000) (hr : r.val = 5000 * t.val + p.val) :
    (iblk4 V c 0 t : Vec Ideal S5000x128 .f32) (ix2 p k) = (V c main_v69 : Cert.Sage.SN.Idx → EReal) (ix2 r k) := by
  unfold iblk4
  rw [View.read_apply]
  show V c main_v69 _ = V c main_v69 _
  congr 1
  funext a
  apply Fin.ext
  obtain ⟨e00, e01, -⟩ := idx_facts4 t
  match a with
  | ⟨0, _⟩ => show win4_0.index t (0 : Fin 2) * 5000 + 1 * p.val = r.val; rw [e00, hr]; omega
  | ⟨1, _⟩ => show win4_0.index t (1 : Fin 2) * 128 + 1 * k.val = k.val; rw [e01]; omega

/-- Row p of the second operand's block at point t is row 5000·t + p of its array. -/
theorem blk4_1_apply (p : Fin 5000) (k : Fin 128) (r : Fin 50000) (hr : r.val = 5000 * t.val + p.val) :
    (iblk4 V c 1 t : Vec Ideal S5000x128 .f32) (ix2 p k) = (V c main_v82 : Cert.Sage.SN.Idx → EReal) (ix2 r k) := by
  unfold iblk4
  rw [View.read_apply]
  show V c main_v82 _ = V c main_v82 _
  congr 1
  funext a
  apply Fin.ext
  obtain ⟨-, -, e10, e11, -⟩ := idx_facts4 t
  match a with
  | ⟨0, _⟩ => show win4_1.index t (0 : Fin 2) * 5000 + 1 * p.val = r.val; rw [e10, hr]; omega
  | ⟨1, _⟩ => show win4_1.index t (1 : Fin 2) * 128 + 1 * k.val = k.val; rw [e11]; omega

/-- The self-weight window's block is the whole weight matrix at every point. -/
theorem blk4_2_apply (k q : Fin 128) :
    (iblk4 V c 2 t : Vec Ideal S128x128 .f32) (ix2 k q) = (V c main_arg13 : Cert.Sage.SW.Idx → EReal) (ix2 k q) := by
  unfold iblk4
  rw [View.read_apply]
  show V c main_arg13 _ = V c main_arg13 _
  congr 1
  funext a
  apply Fin.ext
  obtain ⟨-, -, -, -, e20, e21, -⟩ := idx_facts4 t
  match a with
  | ⟨0, _⟩ => show win4_2.index t (0 : Fin 2) * 128 + 1 * k.val = k.val; rw [e20]; omega
  | ⟨1, _⟩ => show win4_2.index t (1 : Fin 2) * 128 + 1 * q.val = q.val; rw [e21]; omega

/-- The neighbour-weight window's block is the whole weight matrix at every point. -/
theorem blk4_3_apply (k q : Fin 128) :
    (iblk4 V c 3 t : Vec Ideal S128x128 .f32) (ix2 k q) = (V c main_arg14 : Cert.Sage.SW.Idx → EReal) (ix2 k q) := by
  unfold iblk4
  rw [View.read_apply]
  show V c main_arg14 _ = V c main_arg14 _
  congr 1
  funext a
  apply Fin.ext
  obtain ⟨-, -, -, -, -, -, e30, e31, -⟩ := idx_facts4 t
  match a with
  | ⟨0, _⟩ => show win4_3.index t (0 : Fin 2) * 128 + 1 * k.val = k.val; rw [e30]; omega
  | ⟨1, _⟩ => show win4_3.index t (1 : Fin 2) * 128 + 1 * q.val = q.val; rw [e31]; omega

/-- The bias window's block is the whole bias vector at every point. -/
theorem blk4_4_apply (q : Fin 128) :
    (iblk4 V c 4 t : Vec Ideal S128 .f32) (ix1 q) = (V c main_arg15 : Cert.Sage.SV.Idx → EReal) (ix1 q) := by
  unfold iblk4
  rw [View.read_apply]
  show V c main_arg15 _ = V c main_arg15 _
  congr 1
  funext a
  apply Fin.ext
  obtain ⟨-, -, -, -, -, -, -, -, e40, -⟩ := idx_facts4 t
  match a with
  | ⟨0, _⟩ => show win4_4.index t (0 : Fin 1) * 128 + 1 * q.val = q.val; rw [e40]; omega

/-- WHAT POINT t WRITES BACK is block t of the stage computed from the whole arrays: entry (p, q) of the block is entry
    (5000·t + p, q) of the stage, which reads row 5000·t + p of the two node-feature arrays — row p of their blocks —
    and all of the weights and the bias. -/
theorem flushed4 : (dat4 V c).flushed 5 t
    = ((cfg4.win 5).blk t).view.read (Elt Ideal)
        (Cert.Sage.lin (V c main_v69) (V c main_v82) (V c main_arg13) (V c main_arg14) (V c main_arg15)) := by
  show (cfg4.win 5).cut (grid4.coords t) ((dat4 V c).after 5 t) = _
  rw [after4_5]
  unfold out4_5
  rw [View.canon_unit_zero zero2]
  simp only [View.ld_unit_zero (S := S5000x128) zero2, View.ld_unit_zero (S := S128x128) zero2, View.ld_unit_zero (S := S128) zero1]
  funext j
  obtain ⟨p, q, rfl⟩ : ∃ (p : Fin 5000) (q : Fin 128), j = ix2 p q := ⟨j 0, j 1, eq_ix2 j⟩
  have ht : t.val < 10 := lt_of_lt_of_eq t.isLt N_4
  have hp : p.val < 5000 := p.isLt
  obtain ⟨r, hr⟩ : ∃ r : Fin 50000, r.val = 5000 * t.val + p.val := ⟨⟨5000 * t.val + p.val, by omega⟩, rfl⟩
  refine (pay4_apply (iblk4 V c 0 t) (iblk4 V c 1 t) (iblk4 V c 2 t) (iblk4 V c 3 t) (iblk4 V c 4 t) p q).trans ?_
  rw [View.read_apply]
  have hemb : ((cfg4.win 5).blk t).view.emb (ix2 p q) = ix2 r q := by
    funext a
    apply Fin.ext
    obtain ⟨-, -, -, -, -, -, -, -, -, e50, e51⟩ := idx_facts4 t
    match a with
    | ⟨0, _⟩ => show win4_5.index t (0 : Fin 2) * 5000 + 1 * p.val = r.val; rw [e50, hr]; omega
    | ⟨1, _⟩ => show win4_5.index t (1 : Fin 2) * 128 + 1 * q.val = q.val; rw [e51]; omega
  rw [hemb]
  exact lin_entry (V c main_v69) (V c main_v82) (V c main_arg13) (V c main_arg14) (V c main_arg15)
    (iblk4 V c 0 t) (iblk4 V c 1 t) (iblk4 V c 2 t) (iblk4 V c 3 t) (iblk4 V c 4 t) p q r
    (fun k => blk4_0_apply V c t p k r hr) (fun k => blk4_1_apply V c t p k r hr)
    (fun k => blk4_2_apply V c t k q) (fun k => blk4_3_apply V c t k q) (blk4_4_apply V c t q)

end Blocks

/-- An index of the result array is in point t's block iff each coordinate is in the block's range on its axis. -/
theorem mem_blk4 (t : Fin cfg4.N) (i : S50000x128.Idx) :
    i ∈ ((cfg4.win 5).blk t).view.set
      ↔ ∀ a : Fin 2, win4_5.index t a * S5000x128.size a ≤ (i a).val ∧ (i a).val < win4_5.index t a * S5000x128.size a + S5000x128.size a := by
  show i ∈ ((View.whole main_v83).slice (win4_5.rect t)).set ↔ _
  rw [View.set_slice_whole, Rect.mem_set_unit]
  exact Iff.rfl

/-- The ten blocks of 5000 rows cover the 50000 rows: row r is in the block of point r / 5000. -/
theorem cover4 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, by rw [show cfg4.N = 10 from N_4]; omega⟩, rfl⟩
  refine ⟨t, flush4_5 t, ?_⟩
  rw [mem_blk4]
  obtain ⟨-, -, -, -, -, -, -, -, -, e50, e51⟩ := idx_facts4 t
  intro a
  match a with
  | ⟨0, _⟩ =>
    show win4_5.index t (0 : Fin 2) * 5000 ≤ (i 0).val ∧ (i 0).val < win4_5.index t (0 : Fin 2) * 5000 + 5000
    rw [e50, ht]; omega
  | ⟨1, _⟩ =>
    show win4_5.index t (1 : Fin 2) * 128 ≤ (i 1).val ∧ (i 1).val < win4_5.index t (1 : Fin 2) * 128 + 128
    rw [e51]; omega

/-- THE RESULT ARRAY of the third SAGE-linear region, after the region: the stage of the arrays the region finds. -/
theorem lin4_final (V : (c : Dev nD) → (b : Ref sig .tc) → Buf (Elt Ideal) ((c : Thread nD τ).loc b)) (c : Dev nD) :
    (Gen.dat4 (F := Ideal) V c).arrAt 5 cfg4.N
      = Cert.Sage.lin (V c main_v69) (V c main_v82) (V c main_arg13) (V c main_arg14) (V c main_arg15) :=
  (dat4 V c).arrAt_eq_of_cover 5
    (Cert.Sage.lin (V c main_v69) (V c main_v82) (V c main_arg13) (V c main_arg14) (V c main_arg15))
    (fun t _ => flushed4 V c t) cover4

end Cert.KernelIdeal.LinValue

end
-- ==== Proof.BnCommon.lean ====
/-
  Two facts about the batch-normalisation stage's arithmetic that do not depend on which of the network's two
  normalisation stages is read, stated over vectors of the stage's literal shapes: a block of 5000 rows by 128
  features, and a per-feature vector of length 128.

  * A per-feature vector that is cast to a single row and then repeated down the 5000 rows of a block reads, at
    row p and column q, its own entry q: the row coordinate is forgotten.
  * Hence scaling a block by such a vector, adding another, and taking the maximum with the float zero gives, at
    entry (p, q), max (x(p,q)·scale(q) + shift(q)) 0 on the extended reals. The float zero is the all-zero word,
    whose value is the real number 0.
-/
import Idealize.ShloMosaic.Lib.Pipeline.Value
import Idealize.ShloMosaic.Lib.ValueLayout
import Idealize.ShloMosaic.PureOps.Ideal.Laws

noncomputable section

namespace Cert.KernelIdeal.BnValue

open Idealize.ShloMosaic Idealize.ShloMosaic.ValueIdx

/-- A block of the feature array: 5000 rows by 128 features. -/
abbrev RowBlock : Shape := ⟨2, ![5000, 128]⟩
/-- A per-feature vector. -/
abbrev PerFeature : Shape := ⟨1, ![128]⟩
/-- A per-feature vector laid out as a single row. -/
abbrev OneRow : Shape := ⟨2, ![1, 128]⟩

/-- The zero offsets of a rank-2 rectangle, however they are spelt. -/
theorem hz2 : (![0, 0] : Fin 2 → Nat) = fun _ => 0 := funext fun a => by fin_cases a <;> rfl
/-- The zero offset of a rank-1 rectangle. -/
theorem hz1 : (![0] : Fin 1 → Nat) = fun _ => 0 := funext fun a => by fin_cases a <;> rfl

/-- A per-feature vector, cast to one row and repeated down 5000 rows, reads its entry q at row p, column q. -/
theorem row_apply (v : FVec Ideal PerFeature .f32) (h0 : PerFeature.ShapeCasts PerFeature)
    (h1 : PerFeature.ShapeCasts OneRow) (h2 : OneRow.Broadcasts RowBlock) (p : Fin 5000) (q : Fin 128) :
    broadcastTo RowBlock (shapeCast OneRow (shapeCast PerFeature v h0) h1) h2 (ix2 p q) = v (ix1 q) := by
  rw [shapeCast_self]
  exact (broadcastTo_1b_ab_apply _ h2 p q).trans (shapeCast_a_1a_apply v h1 0 q)

/-- The stage's arithmetic at one entry of a block: scale, shift, then the maximum with zero. -/
theorem bn_entry (v0 : FVec Ideal RowBlock .f32) (v2 v7 : FVec Ideal PerFeature .f32)
    (h00 : RowBlock.ShapeCasts RowBlock) (h0 : PerFeature.ShapeCasts PerFeature) (h1 : PerFeature.ShapeCasts OneRow)
    (h2 : OneRow.Broadcasts RowBlock) (p : Fin 5000) (q : Fin 128) :
    maximumf (addf (mulf (shapeCast RowBlock v0 h00) (broadcastTo RowBlock (shapeCast OneRow (shapeCast PerFeature v2 h0) h1) h2))
        (broadcastTo RowBlock (shapeCast OneRow (shapeCast PerFeature v7 h0) h1) h2))
      (broadcast RowBlock (Scalar.ofBits (F := Ideal) .f32 0x00000000#32)) (ix2 p q)
      = max (v0 (ix2 p q) * v2 (ix1 q) + v7 (ix1 q)) 0 := by
  rw [maximumf_apply, addf_apply, mulf_apply, broadcast_apply, row_apply, row_apply, shapeCast_self]
  show max _ (Ideal.ofBits .f32 0x00000000#32) = _
  rw [Ideal.ofBits_zero_f32]

end Cert.KernelIdeal.BnValue

end
-- ==== Proof.Bn1.lean ====
/-
  The first folded batch normalisation with rectifier of the network, read as a whole array.

  The stage works on blocks of 5000 rows: at grid point t it reads rows 5000·t … 5000·t + 4999 of the
  [50000, 128] feature array together with the whole [128] scale and shift vectors, and writes the same rows of
  the result. Entry (p, q) of the block it writes is max (x(p,q)·scale(q) + shift(q)) 0, so it is entry
  (5000·t + p, q) of the whole-array function `Cert.Sage.bn`. Row r of the result lies in the block of point
  r / 5000 and in no other, and the ten blocks fill the array; hence after the last point the result array is
  `Cert.Sage.bn` of the three arrays the stage was entered with.
-/
import proofs.«161787_j75977971466899_1_alg».proof.Proof.Gen.KernelIdeal.Frame
import proofs.«161787_j75977971466899_1_alg».proof.Proof.Spec
import proofs.«161787_j75977971466899_1_alg».proof.Proof.BnCommon
import Idealize.ShloMosaic.Lib.Pipeline.Value

noncomputable section

namespace Cert.KernelIdeal.BnValue

open Cert.KernelIdeal Cert.KernelIdeal.Gen Idealize.ShloMosaic Idealize.ShloMosaic.TcCoe Idealize.ShloMosaic.ValueIdx
open Idealize.ShloMosaic.Pipeline (Dat)

/-- The body's stored value at entry (p, q) of a block. -/
theorem pay1_apply (v0 : FVec Ideal S5000x128 .f32) (v2 v7 : FVec Ideal S128 .f32) (p : Fin 5000) (q : Fin 128) :
    k1_pay1 (F := Ideal) v0 v2 v7 (ix2 p q) = max (v0 (ix2 p q) * v2 (ix1 q) + v7 (ix1 q)) 0 := by
  unfold k1_pay1
  exact bn_entry v0 v2 v7 _ _ _ _ p q

/-- If a block's entry (p, q) is the array's entry (r, q), and the block's scale and shift are the arrays', the body's
    stored value at (p, q) is the whole-array function at (r, q). -/
theorem pay1_eq_bn (x0 : FVec Ideal S5000x128 .f32) (x1 x2 : FVec Ideal S128 .f32)
    (A : Cert.Sage.SN.Idx → EReal) (sc sh : Cert.Sage.SV.Idx → EReal) (p : Fin 5000) (q : Fin 128) (r : Fin 50000)
    (e0 : x0 (ix2 p q) = A (ix2 r q)) (e1 : x1 (ix1 q) = sc (ix1 q)) (e2 : x2 (ix1 q) = sh (ix1 q)) :
    k1_pay1 (F := Ideal) x0 x1 x2 (ix2 p q) = Cert.Sage.bn A sc sh (ix2 r q) := by
  rw [pay1_apply, Cert.Sage.bn_ix2, e0, e1, e2]
  rfl

/-- The index maps over the grid: the feature and result windows' block at point t is row block t, column block 0;
    the scale and shift windows' block is block 0 at every point. -/
theorem idx_facts1 : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

/-- What point t writes back is block t of the whole-array function of the arrays the stage was entered with. -/
theorem flushed1_eq (V : (c : Dev nD) → (b : Ref sig .tc) → Buf (Elt Ideal) ((c : Thread nD τ).loc b)) (c : Dev nD)
    (t : Fin cfg1.N) :
    (Gen.dat1 (F := Ideal) V c).flushed 3 t
      = ((cfg1.win 3).blk t).view.read (Elt Ideal) (Cert.Sage.bn (V c main_v21) (V c main_v35) (V c main_v37)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128) hz1]
  obtain ⟨e0, e1, e2, e3, e4, e5⟩ := idx_facts1 t
  have hN : t.val < 10 := lt_of_lt_of_eq t.isLt N_1
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hq : q.val < 128 := q.isLt
  have hemb : ((cfg1.win 3).blk t).view.emb (ix2 p q) = (ix2 (⟨5000 * t.val + p.val, by omega⟩ : Fin 50000) q : S50000x128.Idx) := by
    funext a; apply Fin.ext
    match a with
    | ⟨0, _⟩ => show win1_3.index t (0 : Fin 2) * 5000 + 1 * p.val = 5000 * t.val + p.val; omega
    | ⟨1, _⟩ => show win1_3.index t (1 : Fin 2) * 128 + 1 * q.val = q.val; omega
  show k1_pay1 (F := Ideal) (iblk1 V c 0 t) (iblk1 V c 1 t) (iblk1 V c 2 t) (ix2 p q)
    = Cert.Sage.bn (V c main_v21) (V c main_v35) (V c main_v37) (((cfg1.win 3).blk t).view.emb (ix2 p q))
  rw [hemb]
  refine pay1_eq_bn (iblk1 V c 0 t) (iblk1 V c 1 t) (iblk1 V c 2 t) (V c main_v21) (V c main_v35) (V c main_v37) p q _ ?_ ?_ ?_
  · show V c main_v21 (((cfg1.win 0).blk t).view.emb (ix2 p q)) = V c main_v21 _
    refine congrArg (V c main_v21) (funext fun a => Fin.ext ?_)
    match a with
    | ⟨0, _⟩ => show win1_0.index t (0 : Fin 2) * 5000 + 1 * p.val = 5000 * t.val + p.val; omega
    | ⟨1, _⟩ => show win1_0.index t (1 : Fin 2) * 128 + 1 * q.val = q.val; omega
  · show V c main_v35 (((cfg1.win 1).blk t).view.emb (ix1 q)) = V c main_v35 _
    refine congrArg (V c main_v35) (funext fun a => Fin.ext ?_)
    match a with
    | ⟨0, _⟩ => show win1_1.index t (0 : Fin 1) * 128 + 1 * q.val = q.val; omega
  · show V c main_v37 (((cfg1.win 2).blk t).view.emb (ix1 q)) = V c main_v37 _
    refine congrArg (V c main_v37) (funext fun a => Fin.ext ?_)
    match a with
    | ⟨0, _⟩ => show win1_2.index t (0 : Fin 1) * 128 + 1 * q.val = q.val; omega

/-- An entry of the result array is in point t's block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v38).slice (win1_3.rect t)).set ↔ _
  rw [View.set_slice_whole, Rect.mem_set_unit]
  exact Iff.rfl

/-- Every entry of the result array lies in some point's block: row r in the block of point r / 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; rw [hN]; omega⟩
  have ht : t.val = (i 0).val / 5000 := rfl
  obtain ⟨e0, e1, e2, e3, e4, e5⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the stage's last point its result array is the whole-array function of the arrays it was entered with. -/
theorem bn1_final (V : (c : Dev nD) → (b : Ref sig .tc) → Buf (Elt Ideal) ((c : Thread nD τ).loc b)) (c : Dev nD) :
    (Gen.dat1 (F := Ideal) V c).arrAt 3 cfg1.N
      = Cert.Sage.bn (V c main_v21) (V c main_v35) (V c main_v37) :=
  (dat1 V c).arrAt_eq_of_cover 3 (Cert.Sage.bn (V c main_v21) (V c main_v35) (V c main_v37))
    (fun t _ => flushed1_eq V c t) cover1

end Cert.KernelIdeal.BnValue

end
-- ==== Proof.Bn3.lean ====
/-
  The second folded batch normalisation with rectifier of the network, read as a whole array.

  The stage works on blocks of 5000 rows: at grid point t it reads rows 5000·t … 5000·t + 4999 of the
  [50000, 128] feature array together with the whole [128] scale and shift vectors, and writes the same rows of
  the result. Entry (p, q) of the block it writes is max (x(p,q)·scale(q) + shift(q)) 0, so it is entry
  (5000·t + p, q) of the whole-array function `Cert.Sage.bn`. Row r of the result lies in the block of point
  r / 5000 and in no other, and the ten blocks fill the array; hence after the last point the result array is
  `Cert.Sage.bn` of the three arrays the stage was entered with.
-/
import proofs.«161787_j75977971466899_1_alg».proof.Proof.Gen.KernelIdeal.Frame
import proofs.«161787_j75977971466899_1_alg».proof.Proof.Spec
import proofs.«161787_j75977971466899_1_alg».proof.Proof.BnCommon
import Idealize.ShloMosaic.Lib.Pipeline.Value

noncomputable section

namespace Cert.KernelIdeal.BnValue

open Cert.KernelIdeal Cert.KernelIdeal.Gen Idealize.ShloMosaic Idealize.ShloMosaic.TcCoe Idealize.ShloMosaic.ValueIdx
open Idealize.ShloMosaic.Pipeline (Dat)

/-- The body's stored value at entry (p, q) of a block. -/
theorem pay3_apply (v0 : FVec Ideal S5000x128 .f32) (v2 v7 : FVec Ideal S128 .f32) (p : Fin 5000) (q : Fin 128) :
    k3_pay1 (F := Ideal) v0 v2 v7 (ix2 p q) = max (v0 (ix2 p q) * v2 (ix1 q) + v7 (ix1 q)) 0 := by
  unfold k3_pay1
  exact bn_entry v0 v2 v7 _ _ _ _ p q

/-- If a block's entry (p, q) is the array's entry (r, q), and the block's scale and shift are the arrays', the body's
    stored value at (p, q) is the whole-array function at (r, q). -/
theorem pay3_eq_bn (x0 : FVec Ideal S5000x128 .f32) (x1 x2 : FVec Ideal S128 .f32)
    (A : Cert.Sage.SN.Idx → EReal) (sc sh : Cert.Sage.SV.Idx → EReal) (p : Fin 5000) (q : Fin 128) (r : Fin 50000)
    (e0 : x0 (ix2 p q) = A (ix2 r q)) (e1 : x1 (ix1 q) = sc (ix1 q)) (e2 : x2 (ix1 q) = sh (ix1 q)) :
    k3_pay1 (F := Ideal) x0 x1 x2 (ix2 p q) = Cert.Sage.bn A sc sh (ix2 r q) := by
  rw [pay3_apply, Cert.Sage.bn_ix2, e0, e1, e2]
  rfl

/-- The index maps over the grid: the feature and result windows' block at point t is row block t, column block 0;
    the scale and shift windows' block is block 0 at every point. -/
theorem idx_facts3 : ∀ t : Fin cfg3.N, win3_0.index t (0 : Fin 2) = t.val ∧ win3_0.index t (1 : Fin 2) = 0
    ∧ win3_1.index t (0 : Fin 1) = 0 ∧ win3_2.index t (0 : Fin 1) = 0
    ∧ win3_3.index t (0 : Fin 2) = t.val ∧ win3_3.index t (1 : Fin 2) = 0 :=
  (by decide +kernel : ∀ t : Fin grid3.N, _)

/-- What point t writes back is block t of the whole-array function of the arrays the stage was entered with. -/
theorem flushed3_eq (V : (c : Dev nD) → (b : Ref sig .tc) → Buf (Elt Ideal) ((c : Thread nD τ).loc b)) (c : Dev nD)
    (t : Fin cfg3.N) :
    (Gen.dat3 (F := Ideal) V c).flushed 3 t
      = ((cfg3.win 3).blk t).view.read (Elt Ideal) (Cert.Sage.bn (V c main_v52) (V c main_v66) (V c main_v68)) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S128) hz1]
  obtain ⟨e0, e1, e2, e3, e4, e5⟩ := idx_facts3 t
  have hN : t.val < 10 := lt_of_lt_of_eq t.isLt N_3
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hq : q.val < 128 := q.isLt
  have hemb : ((cfg3.win 3).blk t).view.emb (ix2 p q) = (ix2 (⟨5000 * t.val + p.val, by omega⟩ : Fin 50000) q : S50000x128.Idx) := by
    funext a; apply Fin.ext
    match a with
    | ⟨0, _⟩ => show win3_3.index t (0 : Fin 2) * 5000 + 1 * p.val = 5000 * t.val + p.val; omega
    | ⟨1, _⟩ => show win3_3.index t (1 : Fin 2) * 128 + 1 * q.val = q.val; omega
  show k3_pay1 (F := Ideal) (iblk3 V c 0 t) (iblk3 V c 1 t) (iblk3 V c 2 t) (ix2 p q)
    = Cert.Sage.bn (V c main_v52) (V c main_v66) (V c main_v68) (((cfg3.win 3).blk t).view.emb (ix2 p q))
  rw [hemb]
  refine pay3_eq_bn (iblk3 V c 0 t) (iblk3 V c 1 t) (iblk3 V c 2 t) (V c main_v52) (V c main_v66) (V c main_v68) p q _ ?_ ?_ ?_
  · show V c main_v52 (((cfg3.win 0).blk t).view.emb (ix2 p q)) = V c main_v52 _
    refine congrArg (V c main_v52) (funext fun a => Fin.ext ?_)
    match a with
    | ⟨0, _⟩ => show win3_0.index t (0 : Fin 2) * 5000 + 1 * p.val = 5000 * t.val + p.val; omega
    | ⟨1, _⟩ => show win3_0.index t (1 : Fin 2) * 128 + 1 * q.val = q.val; omega
  · show V c main_v66 (((cfg3.win 1).blk t).view.emb (ix1 q)) = V c main_v66 _
    refine congrArg (V c main_v66) (funext fun a => Fin.ext ?_)
    match a with
    | ⟨0, _⟩ => show win3_1.index t (0 : Fin 1) * 128 + 1 * q.val = q.val; omega
  · show V c main_v68 (((cfg3.win 2).blk t).view.emb (ix1 q)) = V c main_v68 _
    refine congrArg (V c main_v68) (funext fun a => Fin.ext ?_)
    match a with
    | ⟨0, _⟩ => show win3_2.index t (0 : Fin 1) * 128 + 1 * q.val = q.val; omega

/-- An entry of the result array is in point t's block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v69).slice (win3_3.rect t)).set ↔ _
  rw [View.set_slice_whole, Rect.mem_set_unit]
  exact Iff.rfl

/-- Every entry of the result array lies in some point's block: row r in the block of point r / 5000. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; rw [hN]; omega⟩
  have ht : t.val = (i 0).val / 5000 := rfl
  obtain ⟨e0, e1, e2, e3, e4, e5⟩ := idx_facts3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- After the stage's last point its result array is the whole-array function of the arrays it was entered with. -/
theorem bn3_final (V : (c : Dev nD) → (b : Ref sig .tc) → Buf (Elt Ideal) ((c : Thread nD τ).loc b)) (c : Dev nD) :
    (Gen.dat3 (F := Ideal) V c).arrAt 3 cfg3.N
      = Cert.Sage.bn (V c main_v52) (V c main_v66) (V c main_v68) :=
  (dat3 V c).arrAt_eq_of_cover 3 (Cert.Sage.bn (V c main_v52) (V c main_v66) (V c main_v68))
    (fun t _ => flushed3_eq V c t) cover3

end Cert.KernelIdeal.BnValue

end
-- ==== Proof.Chain.lean ====
/-
  The kernel program's result as a function of its arguments.

  The program's final buffer contents are a fold over its ten segments: host stretch, region, host stretch,
  region, … Each segment is opened in turn, from the launch memory forward:

    stretch 0   the reciprocal degree 1/max(deg,1) and the first aggregation  S(x) · (1/d)
    region 0    the first linear stage                                       a₁ = lin x (agg x) Ws₁ Wn₁ b₁
    stretch 1   the batch statistics of a₁ folded into a scale and a shift
    region 1    h₁ = max (a₁ · scale + shift) 0
    stretch 2, region 2, stretch 3, region 3      the same for the second layer, from h₁, giving h₂
    stretch 4, region 4                            the last aggregation and linear stage, from h₂

  A stretch's results are the host functions of the stretch's inputs; a region's output array is the stage's
  specification of the region's input arrays; and a buffer that a segment does not write is carried across it
  unchanged — the arguments all the way from the launch, the reciprocal degree from stretch 0 to stretches 2 and 4.
-/
import proofs.«161787_j75977971466899_1_alg».proof.Proof.Gen.KernelIdeal.Frame
import proofs.«161787_j75977971466899_1_alg».proof.Proof.HostK
import proofs.«161787_j75977971466899_1_alg».proof.Proof.Carry
import proofs.«161787_j75977971466899_1_alg».proof.Proof.NetKDefs
import proofs.«161787_j75977971466899_1_alg».proof.Proof.Spec
import proofs.«161787_j75977971466899_1_alg».proof.Proof.Lin0
import proofs.«161787_j75977971466899_1_alg».proof.Proof.Lin2
import proofs.«161787_j75977971466899_1_alg».proof.Proof.Lin4
import proofs.«161787_j75977971466899_1_alg».proof.Proof.Bn1
import proofs.«161787_j75977971466899_1_alg».proof.Proof.Bn3

set_option maxRecDepth 16384

noncomputable section

namespace Cert.KernelIdeal.Chain

open Cert.KernelIdeal Cert.KernelIdeal.Gen Cert.KernelIdeal.NetK Cert.Sage Cert.Sage.Layer
open Idealize.ShloMosaic Idealize.ShloMosaic.TcCoe Idealize.SL.Sem

variable (m : (ℓ : Loc nD τ sig) → Buf (Elt Ideal) ℓ) (ρ : Dev nD → PrngReg) (c : Dev nD)

/-! ## The arguments, and the two hidden layers' values -/

set_option quotPrecheck false

local notation "aX" => m ((c : Thread nD τ).loc main_arg0)
local notation "aSrc" => m ((c : Thread nD τ).loc main_arg1)
local notation "aDst" => m ((c : Thread nD τ).loc main_arg2)
local notation "aWs1" => m ((c : Thread nD τ).loc main_arg3)
local notation "aWn1" => m ((c : Thread nD τ).loc main_arg4)
local notation "aB1" => m ((c : Thread nD τ).loc main_arg5)
local notation "aG1" => m ((c : Thread nD τ).loc main_arg6)
local notation "aBe1" => m ((c : Thread nD τ).loc main_arg7)
local notation "aWs2" => m ((c : Thread nD τ).loc main_arg8)
local notation "aWn2" => m ((c : Thread nD τ).loc main_arg9)
local notation "aB2" => m ((c : Thread nD τ).loc main_arg10)
local notation "aG2" => m ((c : Thread nD τ).loc main_arg11)
local notation "aBe2" => m ((c : Thread nD τ).loc main_arg12)
local notation "aWs3" => m ((c : Thread nD τ).loc main_arg13)
local notation "aWn3" => m ((c : Thread nD τ).loc main_arg14)
local notation "aB3" => m ((c : Thread nD τ).loc main_arg15)
local notation "A1" => lin aX (aggK aX aSrc aDst (invDeg aDst)) aWs1 aWn1 aB1
local notation "H1" => layerK aX aSrc aDst aWs1 aWn1 aB1 aG1 aBe1
local notation "A2" => lin H1 (aggK H1 aSrc aDst (invDeg aDst)) aWs2 aWn2 aB2
local notation "H2" => layerK H1 aSrc aDst aWs2 aWn2 aB2 aG2 aBe2

/-! ## Layer 1 -/

theorem s1_v7 : W1 m ρ c (Proc.devRef (τ := τ) .tc main_v7) = invDeg aDst := host0_v7 (W0 m ρ c)

theorem s1_v20 : W1 m ρ c (Proc.devRef (τ := τ) .tc main_v20) = aggK aX aSrc aDst (invDeg aDst) := host0_v20 (W0 m ρ c)

theorem s2 : W2 m ρ c (Proc.devRef (τ := τ) .tc main_v21) = A1 := by
  refine (W2_arr m ρ c 5).trans ((LinValue.lin0_final (V1 m ρ) c).trans ?_)
  show lin (W1 m ρ c (Proc.devRef (τ := τ) .tc main_arg0)) (W1 m ρ c (Proc.devRef (τ := τ) .tc main_v20)) (W1 m ρ c (Proc.devRef (τ := τ) .tc main_arg3))
    (W1 m ρ c (Proc.devRef (τ := τ) .tc main_arg4)) (W1 m ρ c (Proc.devRef (τ := τ) .tc main_arg5)) = _
  rw [W1_of m ρ c main_arg0 (by decide), s1_v20, W1_of m ρ c main_arg3 (by decide), W1_of m ρ c main_arg4 (by decide),
    W1_of m ρ c main_arg5 (by decide)]

theorem s3_v21 : W3 m ρ c (Proc.devRef (τ := τ) .tc main_v21) = A1 := (keep1 (W2 m ρ c) main_v21 (by decide)).trans (s2 m ρ c)

theorem s3_v35 : W3 m ρ c (Proc.devRef (τ := τ) .tc main_v35) = scaleOf A1 aG1 := by
  refine (host1_v35 (W2 m ρ c)).trans ?_
  rw [s2, W2_of m ρ c main_arg6 (by decide) (by decide)]

theorem s3_v37 : W3 m ρ c (Proc.devRef (τ := τ) .tc main_v37) = shiftOf A1 aG1 aBe1 := by
  refine (host1_v37 (W2 m ρ c)).trans ?_
  rw [s2, W2_of m ρ c main_arg6 (by decide) (by decide), W2_of m ρ c main_arg7 (by decide) (by decide)]

theorem s4 : W4 m ρ c (Proc.devRef (τ := τ) .tc main_v38) = H1 := by
  refine (W4_arr m ρ c 3).trans ((BnValue.bn1_final (V3 m ρ) c).trans ?_)
  show bn (W3 m ρ c (Proc.devRef (τ := τ) .tc main_v21)) (W3 m ρ c (Proc.devRef (τ := τ) .tc main_v35)) (W3 m ρ c (Proc.devRef (τ := τ) .tc main_v37)) = _
  rw [s3_v21, s3_v35, s3_v37]
  rfl

/-! ## Layer 2 -/

theorem s4_v7 : W4 m ρ c (Proc.devRef (τ := τ) .tc main_v7) = invDeg aDst :=
  (W4_from1 m ρ c main_v7 (by decide) (by decide) (by decide)).trans (s1_v7 m ρ c)

theorem s5_v38 : W5 m ρ c (Proc.devRef (τ := τ) .tc main_v38) = H1 := (keep2 (W4 m ρ c) main_v38 (by decide)).trans (s4 m ρ c)

theorem s5_v51 : W5 m ρ c (Proc.devRef (τ := τ) .tc main_v51) = aggK H1 aSrc aDst (invDeg aDst) := by
  refine (host2_v51 (W4 m ρ c)).trans ?_
  rw [s4, W4_of m ρ c main_arg1 (by decide) (by decide) (by decide) (by decide), W4_of m ρ c main_arg2 (by decide) (by decide) (by decide) (by decide), s4_v7]

theorem s6 : W6 m ρ c (Proc.devRef (τ := τ) .tc main_v52) = A2 := by
  refine (W6_arr m ρ c 5).trans ((LinValue.lin2_final (V5 m ρ) c).trans ?_)
  show lin (W5 m ρ c (Proc.devRef (τ := τ) .tc main_v38)) (W5 m ρ c (Proc.devRef (τ := τ) .tc main_v51)) (W5 m ρ c (Proc.devRef (τ := τ) .tc main_arg8))
    (W5 m ρ c (Proc.devRef (τ := τ) .tc main_arg9)) (W5 m ρ c (Proc.devRef (τ := τ) .tc main_arg10)) = _
  rw [s5_v38, s5_v51, W5_of m ρ c main_arg8 (by decide) (by decide) (by decide) (by decide) (by decide), W5_of m ρ c main_arg9 (by decide) (by decide) (by decide) (by decide) (by decide),
    W5_of m ρ c main_arg10 (by decide) (by decide) (by decide) (by decide) (by decide)]

theorem s7_v52 : W7 m ρ c (Proc.devRef (τ := τ) .tc main_v52) = A2 := (keep3 (W6 m ρ c) main_v52 (by decide)).trans (s6 m ρ c)

theorem s7_v66 : W7 m ρ c (Proc.devRef (τ := τ) .tc main_v66) = scaleOf A2 aG2 := by
  refine (host3_v66 (W6 m ρ c)).trans ?_
  rw [s6, W6_of m ρ c main_arg11 (by decide) (by decide) (by decide) (by decide) (by decide) (by decide)]

theorem s7_v68 : W7 m ρ c (Proc.devRef (τ := τ) .tc main_v68) = shiftOf A2 aG2 aBe2 := by
  refine (host3_v68 (W6 m ρ c)).trans ?_
  rw [s6, W6_of m ρ c main_arg11 (by decide) (by decide) (by decide) (by decide) (by decide) (by decide), W6_of m ρ c main_arg12 (by decide) (by decide) (by decide) (by decide) (by decide) (by decide)]

theorem s8 : W8 m ρ c (Proc.devRef (τ := τ) .tc main_v69) = H2 := by
  refine (W8_arr m ρ c 3).trans ((BnValue.bn3_final (V7 m ρ) c).trans ?_)
  show bn (W7 m ρ c (Proc.devRef (τ := τ) .tc main_v52)) (W7 m ρ c (Proc.devRef (τ := τ) .tc main_v66)) (W7 m ρ c (Proc.devRef (τ := τ) .tc main_v68)) = _
  rw [s7_v52, s7_v66, s7_v68]
  rfl

/-! ## The last stage -/

theorem s8_v7 : W8 m ρ c (Proc.devRef (τ := τ) .tc main_v7) = invDeg aDst :=
  (W8_from1 m ρ c main_v7 (by decide) (by decide) (by decide) (by decide) (by decide) (by decide) (by decide)).trans (s1_v7 m ρ c)

theorem s9_v69 : W9 m ρ c (Proc.devRef (τ := τ) .tc main_v69) = H2 := (keep4 (W8 m ρ c) main_v69 (by decide)).trans (s8 m ρ c)

theorem s9_v82 : W9 m ρ c (Proc.devRef (τ := τ) .tc main_v82) = aggK H2 aSrc aDst (invDeg aDst) := by
  refine (host4_v82 (W8 m ρ c)).trans ?_
  rw [s8, W8_of m ρ c main_arg1 (by decide) (by decide) (by decide) (by decide) (by decide) (by decide) (by decide) (by decide), W8_of m ρ c main_arg2 (by decide) (by decide) (by decide) (by decide) (by decide) (by decide) (by decide) (by decide), s8_v7]

/-- The result buffer's final contents are the network function of the argument arrays. -/
theorem result : W10 m ρ c (Proc.devRef (τ := τ) .tc main_v83)
    = netK aX aSrc aDst aWs1 aWn1 aB1 aG1 aBe1 aWs2 aWn2 aB2 aG2 aBe2 aWs3 aWn3 aB3 := by
  refine (W10_arr m ρ c 5).trans ((LinValue.lin4_final (V9 m ρ) c).trans ?_)
  show lin (W9 m ρ c (Proc.devRef (τ := τ) .tc main_v69)) (W9 m ρ c (Proc.devRef (τ := τ) .tc main_v82)) (W9 m ρ c (Proc.devRef (τ := τ) .tc main_arg13))
    (W9 m ρ c (Proc.devRef (τ := τ) .tc main_arg14)) (W9 m ρ c (Proc.devRef (τ := τ) .tc main_arg15)) = _
  rw [s9_v69, s9_v82, W9_of m ρ c main_arg13 (by decide) (by decide) (by decide) (by decide) (by decide) (by decide) (by decide) (by decide) (by decide), W9_of m ρ c main_arg14 (by decide) (by decide) (by decide) (by decide) (by decide) (by decide) (by decide) (by decide) (by decide),
    W9_of m ρ c main_arg15 (by decide) (by decide) (by decide) (by decide) (by decide) (by decide) (by decide) (by decide) (by decide)]
  rfl

end Cert.KernelIdeal.Chain

end
-- ==== Proof.NetRDefs.lean ====
/-
  The reference program as one function of its arguments.

  Per layer the reference computes, on the whole [50000, 128] array h of node features:
    aggR h   = (Σ over arriving edges of h[src e]) / max(in-degree, 1)        -- the mean aggregation, a quotient
    linR     = h · Ws + aggR h · Wn + b                                       -- two matrix products and the bias
    bnR a    = max ((a − mean a) · rstd a · γ + β) 0                          -- batch normalisation, then the rectifier
  and the network is layer, layer, then a last aggregation and linear stage. The gather/scatter sum, the degree
  and the batch statistics are the SAME host operations the kernel program applies, so they are written here with
  the same named functions; only the quotient, the products and the unfolded normalisation differ in form.
-/
import proofs.«161787_j75977971466899_1_alg».proof.Proof.NetDefs
import proofs.«161787_j75977971466899_1_alg».proof.ReferenceIdeal
import proofs.«161787_j75977971466899_1_alg».proof.Proof.Gen.ReferenceIdeal
import Idealize.ShloMosaic.PureOps.Ideal

noncomputable section

namespace Cert.Sage.NetR

open Cert.KernelIdeal Cert.KernelIdeal.Gen Cert.KernelIdeal.NetK Idealize.ShloMosaic

/-- A weight matrix. -/
abbrev Mat := FVec Ideal S128x128 .f32

/-- The mean aggregation, written as a quotient. -/
def aggR (h : Feat) (src dst : Edge) : Feat :=
  Host.divf (F := Ideal) (scat h src dst) (rowBcast (degMax dst))

/-- The SAGE linear stage by two whole-array matrix products. -/
def linR (x hn : Feat) (Ws Wn : Mat) (b : Vec128) : Feat :=
  addf (addf (Host.dotGeneral (F := Ideal) Cert.ReferenceIdeal.dot_S50000x128_S128x128_S50000x128_1_0_0_1_n_n none x Ws)
             (Host.dotGeneral (F := Ideal) Cert.ReferenceIdeal.dot_S50000x128_S128x128_S50000x128_1_0_0_1_n_n none hn Wn))
       (colBcast b)

/-- Batch normalisation in its unfolded form, then the rectifier. -/
def bnR (a : Feat) (γ β : Vec128) : Feat :=
  maximumf (addf (mulf (mulf (dev a) (colBcast (rstd a))) (colBcast γ)) (colBcast β))
    (broadcastInDim S50000x128 ![] bcast_S_S50000x128 (constant (F := Ideal) S_ .f32 0x00000000#32))

/-- One hidden layer of the reference. -/
def layerR (h : Feat) (src dst : Edge) (Ws Wn : Mat) (b γ β : Vec128) : Feat :=
  bnR (linR h (aggR h src dst) Ws Wn b) γ β

/-- The reference network. -/
def netR (x : Feat) (src dst : Edge) (Ws1 Wn1 : Mat) (b1 g1 be1 : Vec128) (Ws2 Wn2 : Mat) (b2 g2 be2 : Vec128)
    (Ws3 Wn3 : Mat) (b3 : Vec128) : Feat :=
  linR (layerR (layerR x src dst Ws1 Wn1 b1 g1 be1) src dst Ws2 Wn2 b2 g2 be2)
    (aggR (layerR (layerR x src dst Ws1 Wn1 b1 g1 be1) src dst Ws2 Wn2 b2 g2 be2) src dst) Ws3 Wn3 b3

end Cert.Sage.NetR

end
-- ==== Proof.NetR.lean ====
/-
  The generated run of the reference ends at exactly the network function `netR` of the argument arrays: the run's
  composed term and the named composition are the same operations in the same order.
-/
import proofs.«161787_j75977971466899_1_alg».proof.Proof.Gen.ReferenceIdeal.Run
import proofs.«161787_j75977971466899_1_alg».proof.Proof.NetRDefs

set_option maxRecDepth 16384

noncomputable section

namespace Cert.Sage.NetR

open Cert.KernelIdeal Cert.KernelIdeal.Gen Cert.KernelIdeal.NetK Idealize.ShloMosaic Idealize.ShloMosaic.TcCoe

open Cert.ReferenceIdeal in
/-- The reference's run ends at the network function of its argument arrays. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v126 (F := Ideal) m c
      = netR (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13))
          (m ((c.tc : Thread Cert.ReferenceIdeal.nD Cert.ReferenceIdeal.τ).loc Cert.ReferenceIdeal.main_arg14))
          (m ((c.tc : Thread Cert.ReferenceIdeal.nD Cert.ReferenceIdeal.τ).loc Cert.ReferenceIdeal.main_arg15)) := by
  unfold Cert.ReferenceIdeal.Value.res_main_v126
  rfl

end Cert.Sage.NetR

end
-- ==== Proof.LibVariance.lean ====
/-
  Sums of real numbers inside the extended reals, and the law that joins the two ways of computing a
  variance: for real numbers `h i` over a finite set of `n` elements, with mean `μ = (∑ h) / n`,

      (∑ (h i − μ)²) / n  =  (∑ (h i)²) / n − μ²,

  first over ℝ, then over the extended reals with the division `Ideal.div` by the real `n ≠ 0`. Over the
  extended reals the law needs every `h i` real: with one entry `⊤` the left side is `⊤` and the right side
  `⊤ − ⊤ = ⊥`. Also here: the extended-real operations that occur around it send real arguments to real
  results (sums, products, differences, quotients by a nonzero real, the maximum, the reciprocal square root
  of a positive real), stated through the predicate "is the coercion of a real".
-/
import Mathlib
import Idealize.ShloMosaic.PureOps.Ideal

namespace Cert.LibVariance

open Idealize.ShloMosaic

/-- An extended real that is (the coercion of) a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rwa [max_eq_right h]
  · rwa [max_eq_left h]
theorem IsReal.div_coe {x : EReal} (hx : IsReal x) {n : ℝ} (hn : n ≠ 0) : IsReal (Ideal.div x (n : EReal)) := by
  rw [Ideal.div_coe hn]; exact hx.mul (IsReal.coe _)

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The reciprocal square root of a positive real is real. -/
theorem IsReal.rsqrt_pos {r : ℝ} (hr : 0 < r) : IsReal (Ideal.rsqrt (r : EReal)) := by
  rw [Ideal.rsqrt_coe, if_neg (not_lt.mpr hr.le), if_neg hr.ne']
  exact IsReal.coe _

/-- The variance law over ℝ: the mean of the squared deviations from the mean is the mean of the squares
    minus the square of the mean (`n` the number of terms). -/
theorem variance_real {ι : Type*} (s : Finset ι) (h : ι → ℝ) (n : ℝ) (hcard : (s.card : ℝ) = n) (hn : n ≠ 0) :
    (∑ i ∈ s, (h i - (∑ j ∈ s, h j) / n) * (h i - (∑ j ∈ s, h j) / n)) / n
      = (∑ i ∈ s, h i * h i) / n - (∑ j ∈ s, h j) / n * ((∑ j ∈ s, h j) / n) := by
  set S := ∑ j ∈ s, h j with hS
  have h1 : ∑ i ∈ s, (h i - S / n) * (h i - S / n)
      = ∑ i ∈ s, h i * h i - 2 * (S / n) * S + n * (S / n * (S / n)) := by
    have : ∀ i, (h i - S / n) * (h i - S / n) = h i * h i - 2 * (S / n) * h i + S / n * (S / n) := fun i => by ring
    simp only [this, Finset.sum_add_distrib, Finset.sum_sub_distrib, ← Finset.mul_sum, Finset.sum_const, nsmul_eq_mul,
      hcard, ← hS]
    ring
  rw [h1]
  field_simp
  ring

/-- The variance law over the extended reals, for REAL entries and the extended-real quotient by the real
    `n ≠ 0`, `n` the number of terms. -/
theorem variance_ereal {ι : Type*} (s : Finset ι) (h : ι → ℝ) (n : ℝ) (hcard : (s.card : ℝ) = n) (hn : n ≠ 0) :
    Ideal.div (∑ i ∈ s, ((h i : EReal) - Ideal.div (∑ j ∈ s, (h j : EReal)) (n : EReal))
                       * ((h i : EReal) - Ideal.div (∑ j ∈ s, (h j : EReal)) (n : EReal))) (n : EReal)
      = Ideal.div (∑ i ∈ s, (h i : EReal) * (h i : EReal)) (n : EReal)
          - Ideal.div (∑ j ∈ s, (h j : EReal)) (n : EReal) * Ideal.div (∑ j ∈ s, (h j : EReal)) (n : EReal) := by
  simp only [Ideal.div_coe hn, ← coe_sum, ← EReal.coe_mul, ← EReal.coe_sub]
  rw [EReal.coe_eq_coe_iff]
  simp only [one_div, ← div_eq_mul_inv]
  exact variance_real s h n hcard hn

end Cert.LibVariance
-- ==== Proof.LibDivMul.lean ====
/-
  A quotient moved across a product, on the extended reals.

  Division here is the extended reals' `x * y⁻¹` for `y ≠ 0`, and by zero the infinity of the dividend's sign
  (`x / 0 = ⊤` for `0 < x`, `⊥` otherwise, so `0 / 0 = ⊥`). For REAL `a`, `h` and a NONZERO real `c`

      a * (h / c) = (a / c) * h,

  both sides being the real number `a * h / c`; the same holds term by term under a finite sum. At `c = 0` the law
  fails: with `a < 0` and `h = 0` the left side is `a * ⊥ = ⊤` and the right side is `⊥ * 0 = 0`. So a program
  that scales the right factor of a product by `1 / c` and a program that scales the left factor agree exactly where
  every divisor is nonzero, and that hypothesis cannot be dropped.
-/
import Idealize.ShloMosaic.PureOps.Ideal

open Idealize.ShloMosaic

namespace LibDivMul

/-- For real `a`, `h` and a nonzero real `c`: `a * (h / c) = (a / c) * h` on the extended reals. -/
theorem mul_div_eq_div_mul (a h c : ℝ) (hc : c ≠ 0) :
    (a : EReal) * Ideal.div (h : EReal) (c : EReal) = Ideal.div (a : EReal) (c : EReal) * (h : EReal) := by
  rw [Ideal.div_coe hc, Ideal.div_coe hc, ← EReal.coe_mul, ← EReal.coe_mul, ← EReal.coe_mul, ← EReal.coe_mul]
  congr 1
  ring

/-- The same law for extended reals known to be real numbers, the divisor nonzero. -/
theorem mul_div_eq_div_mul_of_real {x y z : EReal} (hx : ∃ a : ℝ, x = (a : EReal)) (hy : ∃ h : ℝ, y = (h : EReal))
    (hz : ∃ c : ℝ, z = (c : EReal)) (hz0 : z ≠ 0) : x * Ideal.div y z = Ideal.div x z * y := by
  obtain ⟨a, rfl⟩ := hx
  obtain ⟨h, rfl⟩ := hy
  obtain ⟨c, rfl⟩ := hz
  exact mul_div_eq_div_mul a h c (by exact_mod_cast hz0)

/-- Term by term under a finite sum: `∑ j, a j * (h j / c j) = ∑ j, (a j / c j) * h j` when every `a j`, `h j`,
    `c j` is a real number and no `c j` is zero. -/
theorem sum_mul_div_eq_sum_div_mul {ι : Type*} (s : Finset ι) (x y z : ι → EReal)
    (hx : ∀ j ∈ s, ∃ a : ℝ, x j = (a : EReal)) (hy : ∀ j ∈ s, ∃ h : ℝ, y j = (h : EReal))
    (hz : ∀ j ∈ s, ∃ c : ℝ, z j = (c : EReal)) (hz0 : ∀ j ∈ s, z j ≠ 0) :
    ∑ j ∈ s, x j * Ideal.div (y j) (z j) = ∑ j ∈ s, Ideal.div (x j) (z j) * y j :=
  Finset.sum_congr rfl fun j hj => mul_div_eq_div_mul_of_real (hx j hj) (hy j hj) (hz j hj) (hz0 j hj)

/-- The law fails at a zero divisor: for a negative real `a`, `a * (0 / 0) = ⊤` while `(a / 0) * 0 = 0`. -/
theorem mul_div_ne_div_mul_at_zero (a : ℝ) (ha : a < 0) :
    (a : EReal) * Ideal.div 0 0 = ⊤ ∧ Ideal.div (a : EReal) 0 * 0 = 0 := by
  refine ⟨?_, mul_zero _⟩
  have h0 : Ideal.div (0 : EReal) 0 = ⊥ := by simp [Ideal.div]
  rw [h0]
  exact EReal.coe_mul_bot_of_neg ha

/-- The general form: for ANY extended reals a and h and any divisor c ≠ 0 (finite or not), a · (h / c) = (a / c) · h.
    Away from zero the quotient is multiplication by the inverse, and multiplication of extended reals is commutative
    and associative; nothing needs to be finite. -/
theorem mul_div_eq_div_mul_of_ne_zero (a h c : EReal) (hc : c ≠ 0) :
    a * Ideal.div h c = Ideal.div a c * h := by
  unfold Ideal.div
  rw [if_neg hc, if_neg hc]
  rw [mul_comm h c⁻¹, ← mul_assoc]

/-- The same under a sum: Σ_j x_j · (y_j / z_j) = Σ_j (x_j / z_j) · y_j when every z_j ≠ 0. -/
theorem sum_mul_div_eq_sum_div_mul_of_ne_zero {ι : Type*} (s : Finset ι) (x y z : ι → EReal) (hz0 : ∀ j ∈ s, z j ≠ 0) :
    ∑ j ∈ s, x j * Ideal.div (y j) (z j) = ∑ j ∈ s, Ideal.div (x j) (z j) * y j :=
  Finset.sum_congr rfl fun j hj => mul_div_eq_div_mul_of_ne_zero _ _ _ (hz0 j hj)

end LibDivMul
-- ==== Proof.Math.lean ====
/-
  The laws on the extended reals that join the two programs, and the closure facts that keep every
  intermediate value a real number.

  * Scaling by a reciprocal is dividing: a · (1/d) = a / d for every extended real a and every d ≠ 0
    (division off zero is the product with the inverse, and 1 · d⁻¹ = d⁻¹). With 1 ≤ d the reciprocal 1/d is
    a real number (it is 0 at d = +∞).
  * The folded batch normalisation is the unfolded one on real numbers:
        a·(γ·r) + (β − μ·(γ·r)) = (a − μ)·r·γ + β,
    distributivity, which holds for reals and fails at infinities.
  * A mean of real numbers is real; a mean of squares of real numbers is a nonnegative real, so adding a
    positive constant makes it positive and its reciprocal square root is a real number.
  * The float literals that occur, as the reals they denote: 0, 1, 50000, and the positive epsilon.
-/
import Mathlib
import Idealize.ShloMosaic.PureOps.Ideal
import proofs.«161787_j75977971466899_1_alg».proof.Proof.LibVariance
import proofs.«161787_j75977971466899_1_alg».proof.Proof.LibDivMul

noncomputable section

namespace Cert.Sage.Math

open Idealize.ShloMosaic Cert.LibVariance

/-! ## The literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

/-- The epsilon added to the variance is a positive real (10995116 / 2^40, about 1e-5). -/
theorem ofBits_eps : ∃ ε : ℝ, 0 < ε ∧ Ideal.ofBits .f32 0x3727C5AC#32 = (ε : EReal) := by
  refine ⟨10995116 / 1099511627776, by norm_num, ?_⟩
  simp [Ideal.ofBits, Ideal.ieee, -EReal.coe_mul]; norm_num

/-! ## Scaling by a reciprocal -/

/-- a · (1/d) = a / d for d ≠ 0: nothing needs to be finite. -/
theorem mul_one_div (a d : EReal) (hd : d ≠ 0) : a * Ideal.div 1 d = Ideal.div a d := by
  rw [LibDivMul.mul_div_eq_div_mul_of_ne_zero a 1 d hd, mul_one]

/-- With 1 ≤ d the reciprocal 1/d is a real number (0 at +∞). -/
theorem isReal_one_div (d : EReal) (hd : 1 ≤ d) : IsReal (Ideal.div 1 d) := by
  have hd0 : d ≠ 0 := fun h => by rw [h] at hd; exact absurd hd (by norm_num)
  unfold Ideal.div
  rw [if_neg hd0, one_mul]
  induction d using EReal.rec with
  | bot =>
    have hlt : (⊥ : EReal) < 1 := by rw [← EReal.coe_one]; exact EReal.bot_lt_coe 1
    exact absurd hd (not_le.mpr hlt)
  | top => exact ⟨0, by simp⟩
  | coe r => exact ⟨r⁻¹, (EReal.coe_inv r).symm⟩

/-- The maximum with 1 is at least 1, in particular not 0. -/
theorem one_le_max_one (x : EReal) : 1 ≤ max x 1 := le_max_right _ _

theorem max_one_ne_zero (x : EReal) : max x 1 ≠ 0 := fun h => by
  have := one_le_max_one x; rw [h] at this; exact absurd this (by norm_num)

/-! ## Batch normalisation, folded and unfolded -/

theorem bn_law {a μ r γ β : EReal} (ha : IsReal a) (hμ : IsReal μ) (hr : IsReal r) (hγ : IsReal γ) (hβ : IsReal β) :
    max (a * (γ * r) + (β - μ * (γ * r))) 0 = max ((a - μ) * r * γ + β) 0 := by
  obtain ⟨a, rfl⟩ := ha; obtain ⟨μ, rfl⟩ := hμ; obtain ⟨r, rfl⟩ := hr
  obtain ⟨γ, rfl⟩ := hγ; obtain ⟨β, rfl⟩ := hβ
  congr 1
  simp only [← EReal.coe_mul, ← EReal.coe_sub, ← EReal.coe_add]
  congr 1
  ring

/-! ## Nonnegative reals -/

/-- An extended real that is a nonnegative real number. -/
def IsNonneg (x : EReal) : Prop := ∃ r : ℝ, 0 ≤ r ∧ x = (r : EReal)

theorem IsNonneg.isReal {x : EReal} (h : IsNonneg x) : IsReal x := by
  obtain ⟨r, -, rfl⟩ := h; exact ⟨r, rfl⟩

theorem IsNonneg.zero : IsNonneg (0 : EReal) := ⟨0, le_refl _, rfl⟩

theorem isNonneg_mul_self {x : EReal} (hx : IsReal x) : IsNonneg (x * x) := by
  obtain ⟨a, rfl⟩ := hx; exact ⟨a * a, mul_self_nonneg a, (EReal.coe_mul a a).symm⟩

theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

theorem IsNonneg.sum {ι : Type*} (s : Finset ι) (f : ι → EReal) (hf : ∀ i ∈ s, IsNonneg (f i)) :
    IsNonneg (∑ i ∈ s, f i) := by
  classical
  induction s using Finset.induction_on with
  | empty => simpa using IsNonneg.zero
  | insert a s ha ih =>
    rw [Finset.sum_insert ha]
    exact (hf a (Finset.mem_insert_self a s)).add (ih fun i hi => hf i (Finset.mem_insert_of_mem hi))

theorem IsNonneg.div_coe {x : EReal} (hx : IsNonneg x) {n : ℝ} (hn : 0 < n) : IsNonneg (Ideal.div x (n : EReal)) := by
  obtain ⟨a, ha, rfl⟩ := hx
  rw [Ideal.div_coe hn.ne']
  exact ⟨a * (1 / n), mul_nonneg ha (by positivity), (EReal.coe_mul a (1 / n)).symm⟩

/-- The reciprocal square root of a nonnegative real plus a positive real is a real number. -/
theorem isReal_rsqrt_add {v e : EReal} (hv : IsNonneg v) (he : ∃ ε : ℝ, 0 < ε ∧ e = (ε : EReal)) :
    IsReal (Ideal.rsqrt (v + e)) := by
  obtain ⟨a, ha, rfl⟩ := hv; obtain ⟨ε, hε, rfl⟩ := he
  rw [← EReal.coe_add]
  exact IsReal.rsqrt_pos (by positivity)

end Cert.Sage.Math

end
-- ==== Proof.Layer.lean ====
/-
  One layer of the network is the same function in both programs, on real inputs.

  Read at an entry (r, c), with S = the sum of the neighbours' rows, d = max(in-degree, 1) ≥ 1:

  * aggregation: the kernel program's S(r,c) · (1/d(r)) is the reference's S(r,c) / d(r), since d(r) ≠ 0;
  * the linear stage: the reference's two whole-array matrix products plus the broadcast bias are, entry by
    entry, the two sums over the 128 contracted features plus b(c) — the specification `lin`;
  * normalisation: with μ(c) the column mean and ρ(c) = rsqrt(variance(c) + ε), the folded form
    a·(γρ) + (β − μ·(γρ)) is the unfolded (a − μ)·ρ·γ + β — distributivity, which needs every quantity real.

  Every quantity IS real when the inputs are: a scatter-add of gathered real rows into zeros is a finite sum
  of reals; 1/d is real because d ≥ 1; sums and products of reals are real; a column mean of reals is real;
  a column mean of squares of reals is a NONNEGATIVE real, so adding the positive ε gives a positive real, whose
  reciprocal square root is real; and the rectifier of a real is real. So realness is carried from the inputs
  through both hidden layers, which is what lets the law be applied twice.
-/
import proofs.«161787_j75977971466899_1_alg».proof.Proof.NetDefs
import proofs.«161787_j75977971466899_1_alg».proof.Proof.NetRDefs
import proofs.«161787_j75977971466899_1_alg».proof.Proof.NetKDefs
import proofs.«161787_j75977971466899_1_alg».proof.Proof.Spec
import proofs.«161787_j75977971466899_1_alg».proof.Proof.Math
import proofs.«161787_j75977971466899_1_alg».proof.Proof.LibDot
import proofs.«161787_j75977971466899_1_alg».proof.Proof.LibVariance
import Idealize.ShloMosaic.Lib.Pipeline.Value
import Idealize.ShloMosaic.Lib.ValueIdx
import Idealize.ShloMosaic.PureOps.Ideal.Laws

set_option maxRecDepth 16384

noncomputable section

namespace Cert.Sage.Layer

open Cert.KernelIdeal Cert.KernelIdeal.Gen Cert.KernelIdeal.NetK Cert.Sage.NetR Cert.LibVariance
open Idealize.ShloMosaic Idealize.ShloMosaic.ValueIdx

/-! ## Indices -/

/-- The node (row) of an entry, as an index of a per-node vector. -/
abbrev rowOf (j : S50000x128.Idx) : S50000.Idx := fun a => match a with
  | ⟨0, _⟩ => ⟨(j 0).val, (j 0).isLt⟩
/-- The feature (column) of an entry, as an index of a per-feature vector. -/
abbrev colOf (j : S50000x128.Idx) : S128.Idx := fun a => match a with
  | ⟨0, _⟩ => ⟨(j 1).val, (j 1).isLt⟩

theorem colOf_ix2 (r : Fin 50000) (c : Fin 128) : colOf (ix2 r c) = ix1 c :=
  funext fun a => Fin.ext (match a with | ⟨0, _⟩ => rfl)

/-! ## The broadcasts read at an entry -/

theorem rowBcast_apply (v : NodeVec) (j : S50000x128.Idx) : rowBcast v j = v (rowOf j) := by
  unfold rowBcast
  refine (broadcastInDim_apply _ bcast_S50000x1_S50000x128_0_1 _ j
    (fun a => match a with
      | ⟨0, _⟩ => ⟨(j 0).val, (j 0).isLt⟩
      | ⟨1, _⟩ => ⟨0, Nat.one_pos⟩)
    (fun a => match a with
      | ⟨0, _⟩ => by show (j 0).val = if (50000 : Nat) = 1 then 0 else (j 0).val; rw [if_neg (by decide)]
      | ⟨1, _⟩ => by show 0 = if (1 : Nat) = 1 then 0 else (j 1).val; rw [if_pos rfl])).trans ?_
  exact broadcastInDim_apply _ bcast_S50000_S50000x1_0 v _ (rowOf j) (fun a => match a with
    | ⟨0, _⟩ => by show (j 0).val = if (50000 : Nat) = 1 then 0 else (j 0).val; rw [if_neg (by decide)])

theorem colBcast_apply (v : Vec128) (j : S50000x128.Idx) : colBcast v j = v (colOf j) := by
  unfold colBcast
  refine (broadcastInDim_apply _ bcast_S1x128_S50000x128_0_1 _ j
    (fun a => match a with
      | ⟨0, _⟩ => ⟨0, Nat.one_pos⟩
      | ⟨1, _⟩ => ⟨(j 1).val, (j 1).isLt⟩)
    (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])).trans ?_
  exact broadcastInDim_apply _ bcast_S128_S1x128_1 v _ (colOf j) (fun a => match a with
    | ⟨0, _⟩ => by show (j 1).val = if (128 : Nat) = 1 then 0 else (j 1).val; rw [if_neg (by decide)])

/-- A scalar literal broadcast to any shape reads as the literal's value everywhere. -/
theorem bcast0_apply {t : Shape} (h : S_.BroadcastsInDim t ![]) (w : BitVec 32) (i : t.Idx) :
    broadcastInDim t ![] h (constant (F := Ideal) S_ .f32 w) i = Ideal.ofBits .f32 w :=
  broadcastInDim_apply _ h _ i (fun a => a.elim0) (fun a => a.elim0)

/-! ## The elementwise operations read at an entry (over variables: nothing here can be evaluated) -/

theorem maximumf_at {S : Shape} (x y : FVec Ideal S .f32) (i : S.Idx) : maximumf x y i = max (x i) (y i) := rfl
theorem mulf_at {S : Shape} (x y : FVec Ideal S .f32) (i : S.Idx) : mulf x y i = x i * y i := rfl
theorem addf_at {S : Shape} (x y : FVec Ideal S .f32) (i : S.Idx) : addf x y i = x i + y i := rfl
theorem subf_at {S : Shape} (x y : FVec Ideal S .f32) (i : S.Idx) : subf x y i = x i - y i := rfl
theorem divf_at {S : Shape} (x y : FVec Ideal S .f32) (i : S.Idx) :
    Host.divf (F := Ideal) x y i = Ideal.div (x i) (y i) := rfl
theorem rsqrt_at {S : Shape} (x : FVec Ideal S .f32) (i : S.Idx) :
    Host.rsqrt (F := Ideal) x i = Ideal.rsqrt (x i) := rfl

/-! ## The degree -/

theorem one_le_degMax (dst : Edge) (i : S50000.Idx) : 1 ≤ degMax dst i := by
  unfold degMax
  rw [maximumf_at, bcast0_apply, Math.ofBits_one]
  exact le_max_right _ _

theorem degMax_ne_zero (dst : Edge) (i : S50000.Idx) : degMax dst i ≠ 0 := fun h => by
  have := one_le_degMax dst i; rw [h] at this; exact absurd this (by norm_num)

theorem invDeg_apply (dst : Edge) (i : S50000.Idx) : invDeg dst i = Ideal.div 1 (degMax dst i) := by
  unfold invDeg
  rw [divf_at, bcast0_apply, Math.ofBits_one]

/-! ## Aggregation: times the reciprocal is divided by -/

theorem aggK_eq_aggR (h : Feat) (src dst : Edge) : aggK h src dst (invDeg dst) = aggR h src dst := by
  funext j
  unfold aggK aggR
  rw [mulf_at, divf_at, rowBcast_apply, rowBcast_apply, invDeg_apply]
  exact Math.mul_one_div _ _ (degMax_ne_zero dst _)

/-! ## The linear stage: matrix products are sums -/

theorem refDot_plain : Cert.LibDot.Plain Cert.ReferenceIdeal.dot_S50000x128_S128x128_S50000x128_1_0_0_1_n_n where
  hrank := rfl
  hs := rfl
  hl0 := fun j k => by
    unfold DotDims.lhsIdx
    rw [dif_neg (show ¬(0 : Fin 2) ∈ Cert.ReferenceIdeal.dot_S50000x128_S128x128_S50000x128_1_0_0_1_n_n.lhsBatch by decide),
      dif_pos (show (0 : Fin 2) ∈ Cert.ReferenceIdeal.dot_S50000x128_S128x128_S50000x128_1_0_0_1_n_n.lhsNonContracting by decide)]
    rfl
  hl1 := fun j k => Cert.ReferenceIdeal.dot_S50000x128_S128x128_S50000x128_1_0_0_1_n_n.lhsIdx_val_of_single rfl j k
  hr0 := fun j k => Cert.ReferenceIdeal.dot_S50000x128_S128x128_S50000x128_1_0_0_1_n_n.rhsIdx_val_of_single rfl j k
  hr1 := fun j k => by
    unfold DotDims.rhsIdx
    rw [dif_neg (show ¬(1 : Fin 2) ∈ Cert.ReferenceIdeal.dot_S50000x128_S128x128_S50000x128_1_0_0_1_n_n.rhsBatch by decide),
      dif_pos (show (1 : Fin 2) ∈ Cert.ReferenceIdeal.dot_S50000x128_S128x128_S50000x128_1_0_0_1_n_n.rhsNonContracting by decide)]
    rfl

theorem linR_eq_lin (x hn : Feat) (Ws Wn : Mat) (b : Vec128) : linR x hn Ws Wn b = lin x hn Ws Wn b := by
  funext j
  obtain ⟨r, c, rfl⟩ : ∃ (r : Fin 50000) (c : Fin 128), j = ix2 r c := ⟨j 0, j 1, eq_ix2 j⟩
  rw [lin_ix2]
  unfold linR linAt
  rw [addf_at, addf_at, Cert.LibDot.dotGeneral_ix2 refDot_plain, Cert.LibDot.dotGeneral_ix2 refDot_plain,
    colBcast_apply, colOf_ix2]

/-! ## Realness -/

local notation "RealF" => AllReal (S := S50000x128)
local notation "RealV" => AllReal (S := S128)
local notation "RealM" => AllReal (S := S128x128)
local notation "RealN" => AllReal (S := S50000)

/-- A scatter-add of real updates into a real operand is real: each entry is the operand's entry plus a finite
    sum of update entries. (Over arbitrary shapes.) -/
theorem isReal_scatterAdd {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  refine IsReal.add (hx i) ?_
  apply IsReal.sum
  intro j _
  exact hu j

/-- A gather of a real array is real: each entry is an entry of the operand. (Over arbitrary shapes.) -/
theorem isReal_gather {s si t : Shape} {w : Nat} (d : GatherDims s si t) (x : s.Idx → EReal) (idx : IVec si w)
    (hx : ∀ i, IsReal (x i)) (j : t.Idx) : IsReal (Host.gather d x idx j) := hx _

/-- The host's accumulating scatter at the ideal instance is the exact sum. (Over arbitrary shapes.) -/
theorem scatterAdd_at {s si su : Shape} {w : Nat} (d : ScatterDims s si su) (x : FVec Ideal s .f32) (idx : IVec si w)
    (u : FVec Ideal su .f32) (i : s.Idx) :
    Host.scatterAdd (F := Ideal) d x idx u i = Ideal.hostScatterAdd d x idx u i := rfl

theorem allReal_scat (h : Feat) (src dst : Edge) (hh : RealF h) : RealF (scat h src dst) := by
  intro i
  unfold scat
  rw [scatterAdd_at]
  refine isReal_scatterAdd _ _ _ _ (fun k => ?_) (fun j => isReal_gather _ _ _ hh j) i
  rw [bcast0_apply, Math.ofBits_zero]
  exact IsReal.zero

theorem allReal_invDeg (dst : Edge) : RealN (invDeg dst) := fun i => by
  rw [invDeg_apply]
  exact Math.isReal_one_div _ (one_le_degMax dst i)

theorem allReal_aggK (h : Feat) (src dst : Edge) (hh : RealF h) : RealF (aggK h src dst (invDeg dst)) := fun j => by
  unfold aggK
  rw [mulf_at, rowBcast_apply]
  exact IsReal.mul (allReal_scat h src dst hh j) (allReal_invDeg dst _)

theorem allReal_lin (x hn : Feat) (Ws Wn : Mat) (b : Vec128) (hx : RealF x) (hhn : RealF hn) (hWs : RealM Ws)
    (hWn : RealM Wn) (hb : RealV b) : RealF (lin x hn Ws Wn b) := fun j => by
  unfold lin linAt
  exact IsReal.add (IsReal.add (IsReal.sum _ _ fun k _ => IsReal.mul (hx _) (hWs _))
    (IsReal.sum _ _ fun k _ => IsReal.mul (hhn _) (hWn _))) (hb _)

/-- The number of nodes reads as the real 50000. -/
theorem nNodes_apply (i : S128.Idx) : nNodes i = ((50000 : ℝ) : EReal) := by
  unfold nNodes; rw [bcast0_apply, Math.ofBits_50000]

/-- A column sum is the host's reduce at the ideal instance: the initial value plus the sum of the entries that reduce to it. -/
theorem colSum_eq (a : Feat) (i : S128.Idx) :
    colSum a i = Ideal.hostReduceAdd reducesTo_S50000x128_S128_d0 a (Ideal.ofBits .f32 0x00000000#32) i := rfl

theorem isReal_colSum (a : Feat) (ha : RealF a) (i : S128.Idx) : IsReal (colSum a i) := by
  rw [colSum_eq, Math.ofBits_zero]
  unfold Ideal.hostReduceAdd
  exact IsReal.zero.add (IsReal.sum _ _ fun k _ => ha k)

theorem isNonneg_colSum (a : Feat) (ha : ∀ k, Math.IsNonneg (a k)) (i : S128.Idx) : Math.IsNonneg (colSum a i) := by
  rw [colSum_eq, Math.ofBits_zero]
  unfold Ideal.hostReduceAdd
  exact Math.IsNonneg.zero.add (Math.IsNonneg.sum _ _ fun k _ => ha k)

theorem mean_apply (a : Feat) (i : S128.Idx) : mean a i = Ideal.div (colSum a i) ((50000 : ℝ) : EReal) := by
  unfold mean
  rw [divf_at, nNodes_apply]

theorem isReal_mean (a : Feat) (ha : RealF a) (i : S128.Idx) : IsReal (mean a i) := by
  rw [mean_apply]; exact (isReal_colSum a ha i).div_coe (by norm_num)

theorem dev_apply (a : Feat) (j : S50000x128.Idx) : dev a j = a j - mean a (colOf j) := by
  unfold dev
  rw [subf_at, colBcast_apply]

theorem isReal_dev (a : Feat) (ha : RealF a) (j : S50000x128.Idx) : IsReal (dev a j) := by
  rw [dev_apply]
  exact IsReal.sub (ha j) (isReal_mean a ha _)

theorem isNonneg_var (a : Feat) (ha : RealF a) (i : S128.Idx) : Math.IsNonneg (var a i) := by
  unfold var
  rw [divf_at, nNodes_apply]
  refine (isNonneg_colSum _ (fun k => ?_) i).div_coe (by norm_num)
  rw [mulf_at]
  exact Math.isNonneg_mul_self (isReal_dev a ha k)

theorem isReal_rstd (a : Feat) (ha : RealF a) (i : S128.Idx) : IsReal (rstd a i) := by
  unfold rstd
  rw [rsqrt_at, addf_at, bcast0_apply]
  exact Math.isReal_rsqrt_add (isNonneg_var a ha i) Math.ofBits_eps

theorem scaleOf_apply (a : Feat) (γ : Vec128) (i : S128.Idx) : scaleOf a γ i = γ i * rstd a i := by
  unfold scaleOf
  rw [mulf_at]

theorem shiftOf_apply (a : Feat) (γ β : Vec128) (i : S128.Idx) :
    shiftOf a γ β i = β i - mean a i * (γ i * rstd a i) := by
  unfold shiftOf
  rw [subf_at, mulf_at, scaleOf_apply]

/-! ## Normalisation: folded is unfolded, on reals; and the result is real -/

theorem bn_eq_bnR (a : Feat) (γ β : Vec128) (ha : RealF a) (hγ : RealV γ) (hβ : RealV β) :
    bn a (scaleOf a γ) (shiftOf a γ β) = bnR a γ β := by
  funext j
  obtain ⟨r, c, rfl⟩ : ∃ (r : Fin 50000) (c : Fin 128), j = ix2 r c := ⟨j 0, j 1, eq_ix2 j⟩
  rw [bn_ix2]
  unfold bnAt bnR
  rw [maximumf_at, addf_at, mulf_at, mulf_at, dev_apply, colBcast_apply, colBcast_apply, colBcast_apply, colOf_ix2,
    bcast0_apply, Math.ofBits_zero, scaleOf_apply, shiftOf_apply]
  exact Math.bn_law (ha _) (isReal_mean a ha _) (isReal_rstd a ha _) (hγ _) (hβ _)

theorem allReal_bn (a : Feat) (γ β : Vec128) (ha : RealF a) (hγ : RealV γ) (hβ : RealV β) :
    RealF (bn a (scaleOf a γ) (shiftOf a γ β)) := fun j => by
  unfold bn bnAt
  rw [scaleOf_apply, shiftOf_apply]
  exact IsReal.max (IsReal.add (IsReal.mul (ha _) (IsReal.mul (hγ _) (isReal_rstd a ha _)))
    (IsReal.sub (hβ _) (IsReal.mul (isReal_mean a ha _) (IsReal.mul (hγ _) (isReal_rstd a ha _))))) IsReal.zero

/-! ## One hidden layer -/

theorem layerK_eq_layerR (h : Feat) (src dst : Edge) (Ws Wn : Mat) (b γ β : Vec128) (hh : RealF h) (hWs : RealM Ws)
    (hWn : RealM Wn) (hb : RealV b) (hγ : RealV γ) (hβ : RealV β) :
    layerK h src dst Ws Wn b γ β = layerR h src dst Ws Wn b γ β := by
  unfold layerK layerR
  rw [bn_eq_bnR _ γ β (allReal_lin h _ Ws Wn b hh (allReal_aggK h src dst hh) hWs hWn hb) hγ hβ,
    aggK_eq_aggR, linR_eq_lin]

theorem allReal_layerK (h : Feat) (src dst : Edge) (Ws Wn : Mat) (b γ β : Vec128) (hh : RealF h) (hWs : RealM Ws)
    (hWn : RealM Wn) (hb : RealV b) (hγ : RealV γ) (hβ : RealV β) : RealF (layerK h src dst Ws Wn b γ β) :=
  allReal_bn _ γ β (allReal_lin h _ Ws Wn b hh (allReal_aggK h src dst hh) hWs hWn hb) hγ hβ

/-! ## The network -/

/-- On real inputs the two networks are one function. -/
theorem netK_eq_netR (x : Feat) (src dst : Edge) (Ws1 Wn1 : Mat) (b1 g1 be1 : Vec128) (Ws2 Wn2 : Mat) (b2 g2 be2 : Vec128)
    (Ws3 Wn3 : Mat) (b3 : Vec128) (hx : RealF x) (hWs1 : RealM Ws1) (hWn1 : RealM Wn1) (hb1 : RealV b1) (hg1 : RealV g1)
    (hbe1 : RealV be1) (hWs2 : RealM Ws2) (hWn2 : RealM Wn2) (hb2 : RealV b2) (hg2 : RealV g2) (hbe2 : RealV be2) :
    netK x src dst Ws1 Wn1 b1 g1 be1 Ws2 Wn2 b2 g2 be2 Ws3 Wn3 b3
      = netR x src dst Ws1 Wn1 b1 g1 be1 Ws2 Wn2 b2 g2 be2 Ws3 Wn3 b3 := by
  have h1 := allReal_layerK x src dst Ws1 Wn1 b1 g1 be1 hx hWs1 hWn1 hb1 hg1 hbe1
  unfold netK netR
  rw [layerK_eq_layerR (layerK x src dst Ws1 Wn1 b1 g1 be1) src dst Ws2 Wn2 b2 g2 be2 h1 hWs2 hWn2 hb2 hg2 hbe2,
    layerK_eq_layerR x src dst Ws1 Wn1 b1 g1 be1 hx hWs1 hWn1 hb1 hg1 hbe1, aggK_eq_aggR, linR_eq_lin]

end Cert.Sage.Layer

end
-- ==== Proof.PreReal.lean ====
/-
  Finite inputs are real numbers.

  The precondition is the conjunction, over the fourteen floating-point arguments, of jnp.all(|x| < inf). Over the
  extended reals the absolute value is max x (-x) and the constant with bit pattern 0x7F800000 is +∞, so the test
  at one entry says max x (-x) < +∞. That fails at x = +∞ and at x = -∞ (whose negation is +∞) and holds at every
  real number, so an entry that passes is the coercion of a real.

  jnp.all is an AND-reduction over all axes started from true; its result is true only if every entry was true. The
  fourteen results are joined by thirteen ANDs nested to the left, ((t0 ∧ t3) ∧ t4) ∧ … ∧ t15, and an AND of
  one-bit words is 1 only if both operands are 1. Peeling the ANDs from the outside gives the fourteen facts, and
  each gives "every entry of that argument is real". Nothing here looks inside a reduction: the argument is the same
  for an array of any shape, so it is made once for a variable array and used fourteen times.

  The two integer arguments (1 and 2) are not constrained by the precondition and do not appear in the conclusion.
-/
import Mathlib
import Idealize.ShloMosaic.Lib.ReduceAll
import Idealize.ShloMosaic.Lib.ValueIdx
import proofs.«161787_j75977971466899_1_alg».proof.Defs
import proofs.«161787_j75977971466899_1_alg».proof.Pre_finite_inputs
import proofs.«161787_j75977971466899_1_alg».proof.Proof.Spec

noncomputable section

namespace Cert.Pre_finite_inputs.Decode

open Idealize.ShloMosaic

/-- The result of a reduction over all axes has rank 0, and a rank-0 array has exactly one index. -/
instance : Subsingleton S_.Idx := ⟨fun a b => funext fun d => d.elim0⟩

/-- An extended real whose absolute value max x (-x) is below +∞ is a real number: at -∞ the negation is +∞, at +∞
    the number itself is, and in both cases the maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the test |x| < inf: the comparison's bit is 1 exactly when max x (-x) < +∞, the bit pattern
    0x7F800000 being +∞. -/
theorem real_of_cmp (x : Ideal .f32)
    (e : FloatOps.cmpf (F := Ideal) .olt (FloatOps.hostAbsf x) (FloatOps.ofBits .f32 0x7F800000#32) = 1#1) :
    ∃ r : ℝ, x = (r : EReal) := by
  have ht : Ideal.ofBits .f32 0x7F800000#32 = (⊤ : EReal) := by simp [Ideal.ofBits, Ideal.ieee]
  change BitVec.ofBool (decide (max x (-x) < Ideal.ofBits .f32 0x7F800000#32)) = 1#1 at e
  rw [ht] at e
  apply real_of_abs_lt_top
  cases hd : decide (max x (-x) < (⊤ : EReal))
  · rw [hd] at e; exact absurd e (by decide)
  · exact of_decide_eq_true hd

/-- jnp.all(|x| < inf) is true, for an array x of any shape: every entry of x is a real number. The AND-reduction
    over all axes is 1 only if the compared bit is 1 at every index; at each index that is the entry fact above. -/
theorem allReal_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
          (constantI S_ 1 1#1) hr hu j = 1#1) : Cert.Sage.AllReal x := by
  intro i
  exact real_of_cmp (x i) (Host.reduce_andi_all _ _ hr hu j e i)

/-- An AND of two rank-0 one-bit arrays is 1 only if both are. -/
theorem andi_split {x y : IVec S_ 1} {j : S_.Idx} (h : andi x y j = 1#1) : x j = 1#1 ∧ y j = 1#1 :=
  IntOp.andi_eq_one.1 h

variable [Facts]

/-- The precondition decoded, for variable argument arrays: if it evaluates to true then every entry of each of the
    fourteen floating-point arguments is a real number. The predicate is thirteen ANDs nested to the left over the
    fourteen jnp.all results; they are peeled from the outside (argument 15 first) and each result is read back by
    `allReal_of_all`. -/
theorem fn_decode (a0 : FVec Ideal S50000x128 .f32) (a1 a2 : IVec S800000 32) (a3 a4 : FVec Ideal S128x128 .f32)
    (a5 a6 a7 : FVec Ideal S128 .f32) (a8 a9 : FVec Ideal S128x128 .f32) (a10 a11 a12 : FVec Ideal S128 .f32)
    (a13 a14 : FVec Ideal S128x128 .f32) (a15 : FVec Ideal S128 .f32) (j : S_.Idx)
    (e : fn (F := Ideal) a0 a1 a2 a3 a4 a5 a6 a7 a8 a9 a10 a11 a12 a13 a14 a15 j = 1#1) :
    Cert.Sage.AllReal a0 ∧ Cert.Sage.AllReal a3 ∧ Cert.Sage.AllReal a4 ∧ Cert.Sage.AllReal a5 ∧ Cert.Sage.AllReal a6 ∧ Cert.Sage.AllReal a7 ∧ Cert.Sage.AllReal a8 ∧ Cert.Sage.AllReal a9 ∧ Cert.Sage.AllReal a10 ∧ Cert.Sage.AllReal a11 ∧ Cert.Sage.AllReal a12 ∧ Cert.Sage.AllReal a13 ∧ Cert.Sage.AllReal a14 ∧ Cert.Sage.AllReal a15 := by
  unfold fn fn_part1 fn_part2 fn_part3 fn_part4 at e
  dsimp only at e
  obtain ⟨e, h15⟩ := andi_split e
  obtain ⟨e, h14⟩ := andi_split e
  obtain ⟨e, h13⟩ := andi_split e
  obtain ⟨e, h12⟩ := andi_split e
  obtain ⟨e, h11⟩ := andi_split e
  obtain ⟨e, h10⟩ := andi_split e
  obtain ⟨e, h9⟩ := andi_split e
  obtain ⟨e, h8⟩ := andi_split e
  obtain ⟨e, h7⟩ := andi_split e
  obtain ⟨e, h6⟩ := andi_split e
  obtain ⟨e, h5⟩ := andi_split e
  obtain ⟨e, h4⟩ := andi_split e
  obtain ⟨h0, h3⟩ := andi_split e
  exact ⟨allReal_of_all a0 _ _ _ j h0, allReal_of_all a3 _ _ _ j h3, allReal_of_all a4 _ _ _ j h4, allReal_of_all a5 _ _ _ j h5, allReal_of_all a6 _ _ _ j h6, allReal_of_all a7 _ _ _ j h7, allReal_of_all a8 _ _ _ j h8, allReal_of_all a9 _ _ _ j h9, allReal_of_all a10 _ _ _ j h10, allReal_of_all a11 _ _ _ j h11, allReal_of_all a12 _ _ _ j h12, allReal_of_all a13 _ _ _ j h13, allReal_of_all a14 _ _ _ j h14, allReal_of_all a15 _ _ _ j h15⟩

end Cert.Pre_finite_inputs.Decode

namespace Cert.KernelIdeal.PreReal

open Idealize.ShloMosaic Idealize.ShloMosaic.TcCoe

/-- On every device, each of the fourteen floating-point argument arrays the launch memory holds consists of real
    numbers: the precondition says the predicate is true of those arrays, at its one (rank-0) index. -/
theorem real_of_pre [hP : Cert.Pre_finite_inputs.Facts]
    (m : (ℓ : Loc nD τ sig) → Buf (Elt Ideal) ℓ) (h : Cert.Pre_KernelIdeal m) (c : Dev nD) :
    Cert.Sage.AllReal (m ((c.tc : Thread nD τ).loc main_arg0))
    ∧ Cert.Sage.AllReal (m ((c.tc : Thread nD τ).loc main_arg3))
    ∧ Cert.Sage.AllReal (m ((c.tc : Thread nD τ).loc main_arg4))
    ∧ Cert.Sage.AllReal (m ((c.tc : Thread nD τ).loc main_arg5))
    ∧ Cert.Sage.AllReal (m ((c.tc : Thread nD τ).loc main_arg6))
    ∧ Cert.Sage.AllReal (m ((c.tc : Thread nD τ).loc main_arg7))
    ∧ Cert.Sage.AllReal (m ((c.tc : Thread nD τ).loc main_arg8))
    ∧ Cert.Sage.AllReal (m ((c.tc : Thread nD τ).loc main_arg9))
    ∧ Cert.Sage.AllReal (m ((c.tc : Thread nD τ).loc main_arg10))
    ∧ Cert.Sage.AllReal (m ((c.tc : Thread nD τ).loc main_arg11))
    ∧ Cert.Sage.AllReal (m ((c.tc : Thread nD τ).loc main_arg12))
    ∧ Cert.Sage.AllReal (m ((c.tc : Thread nD τ).loc main_arg13))
    ∧ Cert.Sage.AllReal (m ((c.tc : Thread nD τ).loc main_arg14))
    ∧ Cert.Sage.AllReal (m ((c.tc : Thread nD τ).loc main_arg15)) :=
  Cert.Pre_finite_inputs.Decode.fn_decode _ _ _ _ _ _ _ _ _ _ _ _ _ _ _ _ ValueIdx.ix0 (congrFun (h c) ValueIdx.ix0)

end Cert.KernelIdeal.PreReal

end
-- ==== Proof.Claims.lean ====
/-
  The five claims.

  The three frames: the two kernel programs' frames are generated whole; the reference has no kernel, and its
  frame is its generated run with the result forgotten. `preserves` is trivially true: the idealization pass
  rewrote nothing, so the idealized kernel program is the kernel program's own text read at the ideal instance.

  `algebraic`: both runs end, from memories that agree on the arguments, with the result array at ONE function of
  the argument arrays. The kernel program's result is the last boundary's contents, opened segment by segment into
  the network function in the kernel's form; the reference's result is the network function in the reference's
  form; and on finite (that is, real) inputs the two forms are one function: dividing by max(deg, 1) is scaling by its
  reciprocal, the blockwise matrix products are the whole ones, and the folded batch normalisation is the unfolded
  one, which is where the precondition is used.
-/
import proofs.«161787_j75977971466899_1_alg».proof.Defs
import proofs.«161787_j75977971466899_1_alg».proof.Proof.Gen.Kernel
import proofs.«161787_j75977971466899_1_alg».proof.Proof.Gen.Kernel.Frame
import proofs.«161787_j75977971466899_1_alg».proof.Proof.Gen.KernelIdeal
import proofs.«161787_j75977971466899_1_alg».proof.Proof.Gen.KernelIdeal.Frame
import proofs.«161787_j75977971466899_1_alg».proof.Proof.Gen.ReferenceIdeal
import proofs.«161787_j75977971466899_1_alg».proof.Proof.Gen.ReferenceIdeal.Run
import proofs.«161787_j75977971466899_1_alg».proof.Proof.Gen.Pre_finite_inputs
import proofs.«161787_j75977971466899_1_alg».proof.Proof.KernelRun
import proofs.«161787_j75977971466899_1_alg».proof.Proof.Chain
import proofs.«161787_j75977971466899_1_alg».proof.Proof.NetR
import proofs.«161787_j75977971466899_1_alg».proof.Proof.Layer
import proofs.«161787_j75977971466899_1_alg».proof.Proof.PreReal

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal in
theorem algebraic : Cert.algebraic_KernelIdeal_ReferenceIdeal := by
  intro m ρ m' ρ' hpre hagree
  refine ⟨fun c => Cert.Sage.Layer.netK
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14)) (m ((c.tc : Thread nD τ).loc main_arg15)), ?_, ?_⟩
  · exact (θ_run Cert.KernelIdeal.defs _ _).mono
      (fun r h c => ⟨(h c).1.trans (Cert.KernelIdeal.Chain.result m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨r0, r3, r4, r5, r6, r7, r8, r9, r10, r11, r12, r13, r14, r15⟩ :=
      Cert.KernelIdeal.PreReal.real_of_pre m hpre c
    obtain ⟨e0, e1, e2, e3, e4, e5, e6, e7, e8, e9, e10, e11, e12, e13, e14, e15⟩ := hagree c
    rw [Cert.Sage.NetR.res_eq, e0, e1, e2, e3, e4, e5, e6, e7, e8, e9, e10, e11, e12, e13, e14, e15]
    exact (Cert.Sage.Layer.netK_eq_netR _ _ _ _ _ _ _ _ _ _ _ _ _ _ _ _ r0 r3 r4 r5 r6 r7 r8 r9 r10 r11 r12).symm

end Cert.Proof.Claims

end
-- ==== Proof.lean ====
/-
  The certificate's claim, assembled: the witnesses of the programs' stated facts (the generated instances), then
  the three frames, `preserves` and `algebraic` (Proof/Claims.lean).

  The program is a three-layer graph network (SAGE convolutions with mean aggregation, batch normalisation and the
  rectifier between them) whose dense stages are Pallas kernels and whose gather / scatter-add and batch statistics
  stay on the host; the reference is the same network written with whole-array jnp operations.
-/
import proofs.«161787_j75977971466899_1_alg».proof.Defs
import proofs.«161787_j75977971466899_1_alg».proof.Proof.Claims
import proofs.«161787_j75977971466899_1_alg».proof.Proof.Gen.Kernel
import proofs.«161787_j75977971466899_1_alg».proof.Proof.Gen.KernelIdeal
import proofs.«161787_j75977971466899_1_alg».proof.Proof.Gen.ReferenceIdeal
import proofs.«161787_j75977971466899_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
